-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256000x1 : Shape := ⟨2, ![256000, 1]⟩
abbrev S2x4096000 : Shape := ⟨2, ![2, 4096000]⟩
abbrev S256000 : Shape := ⟨1, ![256000]⟩
abbrev S5x1x32 : Shape := ⟨3, ![5, 1, 32]⟩
abbrev S32 : Shape := ⟨1, ![32]⟩
abbrev S64000x2 : Shape := ⟨2, ![64000, 2]⟩
abbrev S2 : Shape := ⟨1, ![2]⟩
abbrev S_ : Shape := ⟨0, ![]⟩

class Facts : Prop where
  bcast_S_S256000x1 : S_.BroadcastsInDim S256000x1 (![] : Fin 0 → Fin S256000x1.rank)
  reducesTo_S256000x1_S_d0_1 : S256000x1.ReducesTo [0, 1] S_
  h_S_ : 0 < S_.numel
  bcast_S_S5x1x32 : S_.BroadcastsInDim S5x1x32 (![] : Fin 0 → Fin S5x1x32.rank)
  reducesTo_S5x1x32_S_d0_1_2 : S5x1x32.ReducesTo [0, 1, 2] S_
  bcast_S_S32 : S_.BroadcastsInDim S32 (![] : Fin 0 → Fin S32.rank)
  reducesTo_S32_S_d0 : S32.ReducesTo [0] S_
  bcast_S_S64000x2 : S_.BroadcastsInDim S64000x2 (![] : Fin 0 → Fin S64000x2.rank)
  reducesTo_S64000x2_S_d0_1 : S64000x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S64000x2 1) : IVec S_ 1 :=
  let main_c_5 : IVec S_ 1 := constantI S_ 1 1#1
  let main_v17 : IVec S_ 1 := (fun x v => Host.reduce IntOp.andi x v reducesTo_S64000x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S256000x1 .f32) (main_arg1 : IVec S2x4096000 32) (main_arg2 : IVec S256000 32) (main_arg3 : FVec F S5x1x32 .f32) (main_arg4 : FVec F S32 .f32) (main_arg5 : FVec F S64000x2 .f32) (main_arg6 : FVec F S2 .f32) : IVec S_ 1 :=
  let main_v0 : FVec F S256000x1 .f32 := Host.absf main_arg0
  let main_cst : FVec F S_ .f32 := constant S_ .f32 0x7F800000#32
  let main_v1 : FVec F S256000x1 .f32 := broadcastInDim S256000x1 ![] bcast_S_S256000x1 main_cst
  let main_v2 : IVec S256000x1 1 := cmpf .olt main_v0 main_v1
  let main_c : IVec S_ 1 := constantI S_ 1 1#1
  let main_v3 : IVec S_ 1 := (fun x v => Host.reduce IntOp.andi x v reducesTo_S256000x1_S_d0_1 h_S_) main_v2 main_c
  let main_v4 : FVec F S5x1x32 .f32 := Host.absf main_arg3
  let main_cst_0 : FVec F S_ .f32 := constant S_ .f32 0x7F800000#32
  let main_v5 : FVec F S5x1x32 .f32 := broadcastInDim S5x1x32 ![] bcast_S_S5x1x32 main_cst_0
  let main_v6 : IVec S5x1x32 1 := cmpf .olt main_v4 main_v5
  let main_c_1 : IVec S_ 1 := constantI S_ 1 1#1
  let main_v7 : IVec S_ 1 := (fun x v => Host.reduce IntOp.andi x v reducesTo_S5x1x32_S_d0_1_2 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64000x2 .f32 := Host.absf main_arg5
  let main_cst_4 : FVec F S_ .f32 := constant S_ .f32 0x7F800000#32
  let main_v15 : FVec F S64000x2 .f32 := broadcastInDim S64000x2 ![] bcast_S_S64000x2 main_cst_4
  let main_v16 : IVec S64000x2 1 := cmpf .olt main_v14 main_v15
  fn_part1 (F := F) main_arg6 main_v13 main_v16
-- ==== Kernel.lean ====
abbrev S256000x1 : Shape := ⟨2, ![256000, 1]⟩
abbrev S2x4096000 : Shape := ⟨2, ![2, 4096000]⟩
abbrev S256000 : Shape := ⟨1, ![256000]⟩
abbrev S5x1x32 : Shape := ⟨3, ![5, 1, 32]⟩
abbrev S32 : Shape := ⟨1, ![32]⟩
abbrev S64000x2 : Shape := ⟨2, ![64000, 2]⟩
abbrev S2 : Shape := ⟨1, ![2]⟩
abbrev S1x4096000 : Shape := ⟨2, ![1, 4096000]⟩
abbrev S4096000 : Shape := ⟨1, ![4096000]⟩
abbrev S_ : Shape := ⟨0, ![]⟩
abbrev S4096000x1 : Shape := ⟨2, ![4096000, 1]⟩
abbrev S256000x5 : Shape := ⟨2, ![256000, 5]⟩
abbrev S5x32 : Shape := ⟨2, ![5, 32]⟩
abbrev S256000x32 : Shape := ⟨2, ![256000, 32]⟩
abbrev S8000x5 : Shape := ⟨2, ![8000, 5]⟩
abbrev S8000x32 : Shape := ⟨2, ![8000, 32]⟩
abbrev S8000x1 : Shape := ⟨2, ![8000, 1]⟩
abbrev S1x32 : Shape := ⟨2, ![1, 32]⟩
abbrev S128x64000 : Shape := ⟨2, ![128, 64000]⟩
abbrev S128x2 : Shape := ⟨2, ![128, 2]⟩
abbrev S128x6400 : Shape := ⟨2, ![128, 6400]⟩
abbrev S6400x2 : Shape := ⟨2, ![6400, 2]⟩
abbrev S1x2 : Shape := ⟨2, ![1, 2]⟩

abbrev nBuf : Space → Nat
  | .hbm => 130
  | .vmem => 13
  | .smem => 0
  | _ => 0

abbrev hbmTy0_0 (i : Nat) : BufTy := match i % 128 with
  | 0 => ⟨S256000x1, .f32⟩
  | 1 => ⟨S2x4096000, .i32⟩
  | 2 => ⟨S256000, .i32⟩
  | 3 => ⟨S5x1x32, .f32⟩
  | 4 => ⟨S32, .f32⟩
  | 5 => ⟨S64000x2, .f32⟩
  | 6 => ⟨S2, .f32⟩
  | 7 => ⟨S1x4096000, .i32⟩
  | 8 => ⟨S4096000, .i32⟩
  | 9 => ⟨S1x4096000, .i32⟩
  | 10 => ⟨S4096000, .i32⟩
  | 11 => ⟨S_, .f32⟩
  | 12 => ⟨S4096000, .f32⟩
  | 13 => ⟨S_, .f32⟩
  | 14 => ⟨S256000, .f32⟩
  | 15 => ⟨S4096000x1, .i32⟩
  | 16 => ⟨S256000, .f32⟩
  | 17 => ⟨S_, .f32⟩
  | 18 => ⟨S256000, .f32⟩
  | 19 => ⟨S256000, .i1⟩
  | 20 => ⟨S_, .f32⟩
  | 21 => ⟨S256000, .f32⟩
  | 22 => ⟨S256000, .i1⟩
  | 23 => ⟨S_, .f32⟩
  | 24 => ⟨S_, .f32⟩
  | 25 => ⟨S256000, .f32⟩
  | 26 => ⟨S256000, .f32⟩
  | 27 => ⟨S256000, .f32⟩
  | 28 => ⟨S_, .f32⟩
  | 29 => ⟨S_, .f32⟩
  | 30 => ⟨S256000, .f32⟩
  | 31 => ⟨S256000, .f32⟩
  | 32 => ⟨S_, .i32⟩
  | 33 => ⟨S4096000, .i32⟩
  | 34 => ⟨S4096000, .i1⟩
  | 35 => ⟨S_, .i32⟩
  | 36 => ⟨S4096000, .i32⟩
  | 37 => ⟨S4096000, .i32⟩
  | 38 => ⟨S4096000, .i32⟩
  | 39 => ⟨S4096000x1, .i32⟩
  | 40 => ⟨S4096000, .f32⟩
  | 41 => ⟨S4096000, .f32⟩
  | 42 => ⟨S4096000, .f32⟩
  | 43 => ⟨S_, .i32⟩
  | 44 => ⟨S4096000, .i32⟩
  | 45 => ⟨S4096000, .i1⟩
  | 46 => ⟨S_, .i32⟩
  | 47 => ⟨S4096000, .i32⟩
  | 48 => ⟨S4096000, .i32⟩
  | 49 => ⟨S4096000, .i32⟩
  | 50 => ⟨S4096000x1, .i32⟩
  | 51 => ⟨S4096000, .f32⟩
  | 52 => ⟨S4096000, .f32⟩
  | 53 => ⟨S4096000x1, .f32⟩
  | 54 => ⟨S_, .i32⟩
  | 55 => ⟨S4096000, .i32⟩
  | 56 => ⟨S4096000, .i1⟩
  | 57 => ⟨S_, .i32⟩
  | 58 => ⟨S4096000, .i32⟩
  | 59 => ⟨S4096000, .i32⟩
  | 60 => ⟨S4096000, .i32⟩
  | 61 => ⟨S4096000x1, .i32⟩
  | 62 => ⟨S4096000x1, .f32⟩
  | 63 => ⟨S4096000x1, .f32⟩
  | 64 => ⟨S_, .f32⟩
  | 65 => ⟨S256000x1, .f32⟩
  | 66 => ⟨S4096000x1, .i32⟩
  | 67 => ⟨S256000x1, .f32⟩
  | 68 => ⟨S4096000x1, .f32⟩
  | 69 => ⟨S_, .i32⟩
  | 70 => ⟨S4096000, .i32⟩
  | 71 => ⟨S4096000, .i1⟩
  | 72 => ⟨S_, .i32⟩
  | 73 => ⟨S4096000, .i32⟩
  | 74 => ⟨S4096000, .i32⟩
  | 75 => ⟨S4096000, .i32⟩
  | 76 => ⟨S4096000x1, .i32⟩
  | 77 => ⟨S4096000x1, .f32⟩
  | 78 => ⟨S4096000x1, .f32⟩
  | 79 => ⟨S_, .f32⟩
  | 80 => ⟨S256000x1, .f32⟩
  | 81 => ⟨S4096000x1, .i32⟩
  | 82 => ⟨S256000x1, .f32⟩
  | 83 => ⟨S_, .f32⟩
  | 84 => ⟨S256000x1, .f32⟩
  | 85 => ⟨S256000x1, .f32⟩
  | 86 => ⟨S256000x1, .f32⟩
  | 87 => ⟨S4096000x1, .f32⟩
  | 88 => ⟨S_, .i32⟩
  | 89 => ⟨S4096000, .i32⟩
  | 90 => ⟨S4096000, .i1⟩
  | 91 => ⟨S_, .i32⟩
  | 92 => ⟨S4096000, .i32⟩
  | 93 => ⟨S4096000, .i32⟩
  | 94 => ⟨S4096000, .i32⟩
  | 95 => ⟨S4096000x1, .i32⟩
  | 96 => ⟨S4096000x1, .f32⟩
  | 97 => ⟨S4096000x1, .f32⟩
  | 98 => ⟨S_, .f32⟩
  | 99 => ⟨S256000x1, .f32⟩
  | 100 => ⟨S4096000x1, .i32⟩
  | 101 => ⟨S256000x1, .f32⟩
  | 102 => ⟨S_, .f32⟩
  | 103 => ⟨S256000x1, .f32⟩
  | 104 => ⟨S256000x1, .f32⟩
  | 105 => ⟨S256000x1, .f32⟩
  | 106 => ⟨S4096000x1, .f32⟩
  | 107 => ⟨S_, .i32⟩
  | 108 => ⟨S4096000, .i32⟩
  | 109 => ⟨S4096000, .i1⟩
  | 110 => ⟨S_, .i32⟩
  | 111 => ⟨S4096000, .i32⟩
  | 112 => ⟨S4096000, .i32⟩
  | 113 => ⟨S4096000, .i32⟩
  | 114 => ⟨S4096000x1, .i32⟩
  | 115 => ⟨S4096000x1, .f32⟩
  | 116 => ⟨S4096000x1, .f32⟩
  | 117 => ⟨S_, .f32⟩
  | 118 => ⟨S256000x1, .f32⟩
  | 119 => ⟨S4096000x1, .i32⟩
  | 120 => ⟨S256000x1, .f32⟩
  | 121 => ⟨S_, .f32⟩
  | 122 => ⟨S256000x1, .f32⟩
  | 123 => ⟨S256000x1, .f32⟩
  | 124 => ⟨S256000x1, .f32⟩
  | 125 => ⟨S256000x5, .f32⟩
  | 126 => ⟨S5x32, .f32⟩
  | 127 => ⟨S256000x32, .f32⟩
  | _ => ⟨S256000x1, .f32⟩

abbrev hbmTy0_1 (i : Nat) : BufTy := match i % 128 with
  | 0 => ⟨S128x64000, .f32⟩
  | 1 => ⟨S128x2, .f32⟩
  | _ => ⟨S256000x1, .f32⟩

abbrev hbmTy (i : Nat) : BufTy := match i / 128 with
  | 0 => hbmTy0_0 i
  | 1 => hbmTy0_1 i
  | _ => ⟨S256000x1, .f32⟩

abbrev bufTy : (tb : Table) → Fin (tcTables nBuf tb) → BufTy
  | .hbm, ⟨i, _⟩ => hbmTy i
  | .local _ .vmem, ⟨0, _⟩ => ⟨S8000x5, .f32⟩
  | .local _ .vmem, ⟨1, _⟩ => ⟨S8000x5, .f32⟩
  | .local _ .vmem, ⟨2, _⟩ => ⟨S5x32, .f32⟩
  | .local _ .vmem, ⟨3, _⟩ => ⟨S32, .f32⟩
  | .local _ .vmem, ⟨4, _⟩ => ⟨S8000x32, .f32⟩
  | .local _ .vmem, ⟨5, _⟩ => ⟨S8000x32, .f32⟩
  | .local _ .vmem, ⟨6, _⟩ => ⟨S128x6400, .f32⟩
  | .local _ .vmem, ⟨7, _⟩ => ⟨S128x6400, .f32⟩
  | .local _ .vmem, ⟨8, _⟩ => ⟨S6400x2, .f32⟩
  | .local _ .vmem, ⟨9, _⟩ => ⟨S6400x2, .f32⟩
  | .local _ .vmem, ⟨10, _⟩ => ⟨S2, .f32⟩
  | .local _ .vmem, ⟨11, _⟩ => ⟨S128x2, .f32⟩
  | .local _ .vmem, ⟨12, _⟩ => ⟨S128x2, .f32⟩
  | _, _ => ⟨S256000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_19 : Ref sig .tc := ⟨.hbm, 107, rfl⟩
abbrev main_v75 : Ref sig .tc := ⟨.hbm, 108, rfl⟩
abbrev main_v76 : Ref sig .tc := ⟨.hbm, 109, rfl⟩
abbrev main_c_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_21 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_22 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x4096000_S1x4096000_0_0 : S2x4096000.Slices ![0, 0] S1x4096000
  shapeCasts_S1x4096000_S4096000 : S1x4096000.ShapeCasts S4096000
  slices_S2x4096000_S1x4096000_1_0 : S2x4096000.Slices ![1, 0] S1x4096000
  bcast_S_S4096000 : S_.BroadcastsInDim S4096000 (![] : Fin 0 → Fin S4096000.rank)
  bcast_S_S256000 : S_.BroadcastsInDim S256000 (![] : Fin 0 → Fin S256000.rank)
  bcast_S4096000_S4096000x1_0 : S4096000.BroadcastsInDim S4096000x1 (![0] : Fin 1 → Fin S4096000x1.rank)
  bcast_S_S256000x1 : S_.BroadcastsInDim S256000x1 (![] : Fin 0 → Fin S256000x1.rank)
  concatenates_S256000x1_S256000x1_S256000x1_S256000x1_S256000x1_S256000x5_d1 : Shape.Concatenates [S256000x1, S256000x1, S256000x1, S256000x1, S256000x1] S256000x5 1
  shapeCasts_S5x1x32_S5x32 : S5x1x32.ShapeCasts S5x32
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  inb_S5x32_S5x32_0_0 : ∀ a, (![0, 0] : Fin 2 → Nat) a + S5x32.size a ≤ S5x32.size a
  h_S5x32 : 0 < S5x32.numel
  shapeCasts_S5x32_S5x32 : S5x32.ShapeCasts S5x32
  slices_S8000x5_o0_0_S8000x1 : S8000x5.Slices ![0, 0] S8000x1
  slices_S5x32_o0_0_S1x32 : S5x32.Slices ![0, 0] S1x32
  shapeCasts_S1x32_S32 : S1x32.ShapeCasts S32
  shapeCasts_S32_S1x32 : S32.ShapeCasts S1x32
  broadcasts_S8000x1_S8000x32 : S8000x1.Broadcasts S8000x32
  broadcasts_S1x32_S8000x32 : S1x32.Broadcasts S8000x32
  slices_S8000x5_o0_1_S8000x1 : S8000x5.Slices ![0, 1] S8000x1
  slices_S5x32_o1_0_S1x32 : S5x32.Slices ![1, 0] S1x32
  slices_S8000x5_o0_2_S8000x1 : S8000x5.Slices ![0, 2] S8000x1
  slices_S5x32_o2_0_S1x32 : S5x32.Slices ![2, 0] S1x32
  slices_S8000x5_o0_3_S8000x1 : S8000x5.Slices ![0, 3] S8000x1
  slices_S5x32_o3_0_S1x32 : S5x32.Slices ![3, 0] S1x32
  slices_S8000x5_o0_4_S8000x1 : S8000x5.Slices ![0, 4] S8000x1
  slices_S5x32_o4_0_S1x32 : S5x32.Slices ![4, 0] S1x32
  inb_S32_S32_0 : ∀ a, (![0] : Fin 1 → Nat) a + S32.size a ≤ S32.size a
  h_S32 : 0 < S32.numel
  inb_S8000x32_S8000x32_0_0 : ∀ a, (![0, 0] : Fin 2 → Nat) a + S8000x32.size a ≤ S8000x32.size a
  h_S8000x32 : 0 < S8000x32.numel
  shapeCasts_S256000x32_S128x64000 : S256000x32.ShapeCasts S128x64000
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128x6400_S128x6400_0_0 : ∀ a, (![0, 0] : Fin 2 → Nat) a + S128x6400.size a ≤ S128x6400.size a
  h_S128x6400 : 0 < S128x6400.numel
  shapeCasts_S128x6400_S128x6400 : S128x6400.ShapeCasts S128x6400
  bitsLt_bf16_f32 : FTy.bits .bf16 < FTy.bits .f32
  inb_S6400x2_S6400x2_0_0 : ∀ a, (![0, 0] : Fin 2 → Nat) a + S6400x2.size a ≤ S6400x2.size a
  h_S6400x2 : 0 < S6400x2.numel
  inb_S2_S2_0 : ∀ a, (![0] : Fin 1 → Nat) a + S2.size a ≤ S2.size a
  h_S2 : 0 < S2.numel
  shapeCasts_S2_S1x2 : S2.ShapeCasts S1x2
  broadcasts_S1x2_S128x2 : S1x2.Broadcasts S128x2
  scatter_S256000_S4096000x1_S4096000_n_0_0_1_wf : ScatterDims.WF S256000 S4096000x1 S4096000 [] [0] [0] 1
  gather_S256000_S4096000x1_S4096000_n_0_n_n_0_1_1_wf : GatherDims.WF S256000 S4096000x1 S4096000 [] [0] [] [0] [] 1 ![1]
  gather_S256000x1_S4096000x1_S4096000x1_1_0_n_n_0_1_11_wf : GatherDims.WF S256000x1 S4096000x1 S4096000x1 [1] [0] [] [0] [] 1 ![1, 1]
  scatter_S256000x1_S4096000x1_S4096000x1_1_0_0_1_wf : ScatterDims.WF S256000x1 S4096000x1 S4096000x1 [1] [0] [0] 1
  dot_S128x6400_S6400x2_S128x2_1_0_0_1_n_n_wf : DotDims.WF S128x6400 S6400x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S256000x5.size a
  hwx0_0 : ∀ i : grid0.Coords, EltTy.bits .f32 = 32 ∨ (Rect.block (s := S256000x5) S8000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S256000x32.size a
  hwx0_3 : ∀ i : grid0.Coords, EltTy.bits .f32 = 32 ∨ (Rect.block (s := S256000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x6400.size a ≤ S128x64000.size a
  hwx1_0 : ∀ i : grid1.Coords, EltTy.bits .f32 = 32 ∨ (Rect.block (s := S128x64000) S128x6400.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x2.size a ≤ S64000x2.size a
  hwx1_1 : ∀ i : grid1.Coords, EltTy.bits .f32 = 32 ∨ (Rect.block (s := S64000x2) S6400x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)

variable [Facts₀]

def scatter_S256000_S4096000x1_S4096000_n_0_0_1 : ScatterDims S256000 S4096000x1 S4096000 where
  updateWindowDims := []
  insertedWindowDims := [0]
  scatterDimsToOperandDims := [0]
  indexVectorDim := 1
  wf := scatter_S256000_S4096000x1_S4096000_n_0_0_1_wf
def gather_S256000_S4096000x1_S4096000_n_0_n_n_0_1_1 : GatherDims S256000 S4096000x1 S4096000 where
  offsetDims := []
  collapsedSliceDims := [0]
  operandBatchingDims := []
  startIndicesBatchingDims := []
  startIndexMap := [0]
  indexVectorDim := 1
  sliceSizes := ![1]
  wf := gather_S256000_S4096000x1_S4096000_n_0_n_n_0_1_1_wf
def gather_S256000x1_S4096000x1_S4096000x1_1_0_n_n_0_1_11 : GatherDims S256000x1 S4096000x1 S4096000x1 where
  offsetDims := [1]
  collapsedSliceDims := [0]
  operandBatchingDims := []
  startIndicesBatchingDims := []
  startIndexMap := [0]
  indexVectorDim := 1
  sliceSizes := ![1, 1]
  wf := gather_S256000x1_S4096000x1_S4096000x1_1_0_n_n_0_1_11_wf
def scatter_S256000x1_S4096000x1_S4096000x1_1_0_0_1 : ScatterDims S256000x1 S4096000x1 S4096000x1 where
  updateWindowDims := [1]
  insertedWindowDims := [0]
  scatterDimsToOperandDims := [0]
  indexVectorDim := 1
  wf := scatter_S256000x1_S4096000x1_S4096000x1_1_0_0_1_wf
def dot_S128x6400_S6400x2_S128x2_1_0_0_1_n_n : DotDims S128x6400 S6400x2 S128x2 where
  lhsContracting := [1]
  rhsContracting := [0]
  lhsNonContracting := [0]
  rhsNonContracting := [1]
  lhsBatch := []
  rhsBatch := []
  wf := dot_S128x6400_S6400x2_S128x2_1_0_0_1_n_n_wf

abbrev win0_0 : Pipeline.Window sig grid0 :=
  Pipeline.Window.ofSpec (Memref.whole main_v89) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v91) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v92) S128x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S6400x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v93) S128x2.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256000x1 : Shape := ⟨2, ![256000, 1]⟩
abbrev S2x4096000 : Shape := ⟨2, ![2, 4096000]⟩
abbrev S256000 : Shape := ⟨1, ![256000]⟩
abbrev S5x1x32 : Shape := ⟨3, ![5, 1, 32]⟩
abbrev S32 : Shape := ⟨1, ![32]⟩
abbrev S64000x2 : Shape := ⟨2, ![64000, 2]⟩
abbrev S2 : Shape := ⟨1, ![2]⟩
abbrev S1x4096000 : Shape := ⟨2, ![1, 4096000]⟩
abbrev S4096000 : Shape := ⟨1, ![4096000]⟩
abbrev S_ : Shape := ⟨0, ![]⟩
abbrev S4096000x1 : Shape := ⟨2, ![4096000, 1]⟩
abbrev S1x1x32 : Shape := ⟨3, ![1, 1, 32]⟩
abbrev S1x32 : Shape := ⟨2, ![1, 32]⟩
abbrev S256000x32 : Shape := ⟨2, ![256000, 32]⟩
abbrev S128x64000 : Shape := ⟨2, ![128, 64000]⟩
abbrev S128x2 : Shape := ⟨2, ![128, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S256000x1, .f32⟩
  | 1 => ⟨S2x4096000, .i32⟩
  | 2 => ⟨S256000, .i32⟩
  | 3 => ⟨S5x1x32, .f32⟩
  | 4 => ⟨S32, .f32⟩
  | 5 => ⟨S64000x2, .f32⟩
  | 6 => ⟨S2, .f32⟩
  | 7 => ⟨S1x4096000, .i32⟩
  | 8 => ⟨S4096000, .i32⟩
  | 9 => ⟨S1x4096000, .i32⟩
  | 10 => ⟨S4096000, .i32⟩
  | 11 => ⟨S_, .f32⟩
  | 12 => ⟨S4096000, .f32⟩
  | 13 => ⟨S_, .f32⟩
  | 14 => ⟨S256000, .f32⟩
  | 15 => ⟨S4096000x1, .i32⟩
  | 16 => ⟨S256000, .f32⟩
  | 17 => ⟨S_, .f32⟩
  | 18 => ⟨S256000, .f32⟩
  | 19 => ⟨S256000, .i1⟩
  | 20 => ⟨S_, .f32⟩
  | 21 => ⟨S256000, .f32⟩
  | 22 => ⟨S256000, .i1⟩
  | 23 => ⟨S_, .f32⟩
  | 24 => ⟨S_, .f32⟩
  | 25 => ⟨S256000, .f32⟩
  | 26 => ⟨S256000, .f32⟩
  | 27 => ⟨S256000, .f32⟩
  | 28 => ⟨S_, .f32⟩
  | 29 => ⟨S_, .f32⟩
  | 30 => ⟨S256000, .f32⟩
  | 31 => ⟨S256000, .f32⟩
  | 32 => ⟨S_, .i32⟩
  | 33 => ⟨S4096000, .i32⟩
  | 34 => ⟨S4096000, .i1⟩
  | 35 => ⟨S_, .i32⟩
  | 36 => ⟨S4096000, .i32⟩
  | 37 => ⟨S4096000, .i32⟩
  | 38 => ⟨S4096000, .i32⟩
  | 39 => ⟨S4096000x1, .i32⟩
  | 40 => ⟨S4096000, .f32⟩
  | 41 => ⟨S4096000, .f32⟩
  | 42 => ⟨S4096000, .f32⟩
  | 43 => ⟨S_, .i32⟩
  | 44 => ⟨S4096000, .i32⟩
  | 45 => ⟨S4096000, .i1⟩
  | 46 => ⟨S_, .i32⟩
  | 47 => ⟨S4096000, .i32⟩
  | 48 => ⟨S4096000, .i32⟩
  | 49 => ⟨S4096000, .i32⟩
  | 50 => ⟨S4096000x1, .i32⟩
  | 51 => ⟨S4096000, .f32⟩
  | 52 => ⟨S4096000, .f32⟩
  | 53 => ⟨S1x1x32, .f32⟩
  | 54 => ⟨S1x32, .f32⟩
  | 55 => ⟨S256000x32, .f32⟩
  | 56 => ⟨S4096000x1, .f32⟩
  | 57 => ⟨S_, .i32⟩
  | 58 => ⟨S4096000, .i32⟩
  | 59 => ⟨S4096000, .i1⟩
  | 60 => ⟨S_, .i32⟩
  | 61 => ⟨S4096000, .i32⟩
  | 62 => ⟨S4096000, .i32⟩
  | 63 => ⟨S4096000, .i32⟩
  | 64 => ⟨S4096000x1, .i32⟩
  | 65 => ⟨S4096000x1, .f32⟩
  | 66 => ⟨S4096000x1, .f32⟩
  | 67 => ⟨S_, .f32⟩
  | 68 => ⟨S256000x1, .f32⟩
  | 69 => ⟨S4096000x1, .i32⟩
  | 70 => ⟨S256000x1, .f32⟩
  | 71 => ⟨S1x1x32, .f32⟩
  | 72 => ⟨S1x32, .f32⟩
  | 73 => ⟨S256000x32, .f32⟩
  | 74 => ⟨S256000x32, .f32⟩
  | 75 => ⟨S4096000x1, .f32⟩
  | 76 => ⟨S_, .i32⟩
  | 77 => ⟨S4096000, .i32⟩
  | 78 => ⟨S4096000, .i1⟩
  | 79 => ⟨S_, .i32⟩
  | 80 => ⟨S4096000, .i32⟩
  | 81 => ⟨S4096000, .i32⟩
  | 82 => ⟨S4096000, .i32⟩
  | 83 => ⟨S4096000x1, .i32⟩
  | 84 => ⟨S4096000x1, .f32⟩
  | 85 => ⟨S4096000x1, .f32⟩
  | 86 => ⟨S_, .f32⟩
  | 87 => ⟨S256000x1, .f32⟩
  | 88 => ⟨S4096000x1, .i32⟩
  | 89 => ⟨S256000x1, .f32⟩
  | 90 => ⟨S_, .f32⟩
  | 91 => ⟨S256000x1, .f32⟩
  | 92 => ⟨S256000x1, .f32⟩
  | 93 => ⟨S256000x1, .f32⟩
  | 94 => ⟨S1x1x32, .f32⟩
  | 95 => ⟨S1x32, .f32⟩
  | 96 => ⟨S256000x32, .f32⟩
  | 97 => ⟨S256000x32, .f32⟩
  | 98 => ⟨S4096000x1, .f32⟩
  | 99 => ⟨S_, .i32⟩
  | 100 => ⟨S4096000, .i32⟩
  | 101 => ⟨S4096000, .i1⟩
  | 102 => ⟨S_, .i32⟩
  | 103 => ⟨S4096000, .i32⟩
  | 104 => ⟨S4096000, .i32⟩
  | 105 => ⟨S4096000, .i32⟩
  | 106 => ⟨S4096000x1, .i32⟩
  | 107 => ⟨S4096000x1, .f32⟩
  | 108 => ⟨S4096000x1, .f32⟩
  | 109 => ⟨S_, .f32⟩
  | 110 => ⟨S256000x1, .f32⟩
  | 111 => ⟨S4096000x1, .i32⟩
  | 112 => ⟨S256000x1, .f32⟩
  | 113 => ⟨S_, .f32⟩
  | 114 => ⟨S256000x1, .f32⟩
  | 115 => ⟨S256000x1, .f32⟩
  | 116 => ⟨S256000x1, .f32⟩
  | 117 => ⟨S1x1x32, .f32⟩
  | 118 => ⟨S1x32, .f32⟩
  | 119 => ⟨S256000x32, .f32⟩
  | 120 => ⟨S256000x32, .f32⟩
  | 121 => ⟨S4096000x1, .f32⟩
  | 122 => ⟨S_, .i32⟩
  | 123 => ⟨S4096000, .i32⟩
  | 124 => ⟨S4096000, .i1⟩
  | 125 => ⟨S_, .i32⟩
  | 126 => ⟨S4096000, .i32⟩
  | 127 => ⟨S4096000, .i32⟩
  | _ => ⟨S256000x1, .f32⟩

abbrev hbmTy0_1 (i : Nat) : BufTy := match i % 128 with
  | 0 => ⟨S4096000, .i32⟩
  | 1 => ⟨S4096000x1, .i32⟩
  | 2 => ⟨S4096000x1, .f32⟩
  | 3 => ⟨S4096000x1, .f32⟩
  | 4 => ⟨S_, .f32⟩
  | 5 => ⟨S256000x1, .f32⟩
  | 6 => ⟨S4096000x1, .i32⟩
  | 7 => ⟨S256000x1, .f32⟩
  | 8 => ⟨S_, .f32⟩
  | 9 => ⟨S256000x1, .f32⟩
  | 10 => ⟨S256000x1, .f32⟩
  | 11 => ⟨S256000x1, .f32⟩
  | 12 => ⟨S1x1x32, .f32⟩
  | 13 => ⟨S1x32, .f32⟩
  | 14 => ⟨S256000x32, .f32⟩
  | 15 => ⟨S256000x32, .f32⟩
  | 16 => ⟨S1x32, .f32⟩
  | 17 => ⟨S256000x32, .f32⟩
  | 18 => ⟨S256000x32, .f32⟩
  | 19 => ⟨S_, .f32⟩
  | 20 => ⟨S256000x32, .f32⟩
  | 21 => ⟨S256000x32, .f32⟩
  | 22 => ⟨S128x64000, .f32⟩
  | 23 => ⟨S128x2, .f32⟩
  | 24 => ⟨S1x2, .f32⟩
  | 25 => ⟨S128x2, .f32⟩
  | 26 => ⟨S128x2, .f32⟩
  | _ => ⟨S256000x1, .f32⟩

abbrev hbmTy (i : Nat) : BufTy := match i / 128 with
  | 0 => hbmTy0_0 i
  | 1 => hbmTy0_1 i
  | _ => ⟨S256000x1, .f32⟩

abbrev bufTy : (tb : Table) → Fin (tcTables nBuf tb) → BufTy
  | .hbm, ⟨i, _⟩ => hbmTy i
  | _, _ => ⟨S256000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_19 : Ref sig .tc := ⟨.hbm, 122, rfl⟩
abbrev main_v90 : Ref sig .tc := ⟨.hbm, 123, rfl⟩
abbrev main_v91 : Ref sig .tc := ⟨.hbm, 124, rfl⟩
abbrev main_c_20 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call2_cst : Ref sig .tc := ⟨.hbm, 147, rfl⟩
abbrev main_call2_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]

class Facts₀ : Prop where
  slices_S2x4096000_S1x4096000_0_0 : S2x4096000.Slices ![0, 0] S1x4096000
  shapeCasts_S1x4096000_S4096000 : S1x4096000.ShapeCasts S4096000
  slices_S2x4096000_S1x4096000_1_0 : S2x4096000.Slices ![1, 0] S1x4096000
  bcast_S_S4096000 : S_.BroadcastsInDim S4096000 (![] : Fin 0 → Fin S4096000.rank)
  bcast_S_S256000 : S_.BroadcastsInDim S256000 (![] : Fin 0 → Fin S256000.rank)
  bcast_S4096000_S4096000x1_0 : S4096000.BroadcastsInDim S4096000x1 (![0] : Fin 1 → Fin S4096000x1.rank)
  slices_S5x1x32_S1x1x32_0_0_0 : S5x1x32.Slices ![0, 0, 0] S1x1x32
  shapeCasts_S1x1x32_S1x32 : S1x1x32.ShapeCasts S1x32
  bcast_S_S256000x1 : S_.BroadcastsInDim S256000x1 (![] : Fin 0 → Fin S256000x1.rank)
  slices_S5x1x32_S1x1x32_1_0_0 : S5x1x32.Slices ![1, 0, 0] S1x1x32
  slices_S5x1x32_S1x1x32_2_0_0 : S5x1x32.Slices ![2, 0, 0] S1x1x32
  slices_S5x1x32_S1x1x32_3_0_0 : S5x1x32.Slices ![3, 0, 0] S1x1x32
  slices_S5x1x32_S1x1x32_4_0_0 : S5x1x32.Slices ![4, 0, 0] S1x1x32
  bcast_S32_S1x32_1 : S32.BroadcastsInDim S1x32 (![1] : Fin 1 → Fin S1x32.rank)
  bcast_S1x32_S256000x32_0_1 : S1x32.BroadcastsInDim S256000x32 (![0, 1] : Fin 2 → Fin S256000x32.rank)
  bcast_S_S256000x32 : S_.BroadcastsInDim S256000x32 (![] : Fin 0 → Fin S256000x32.rank)
  shapeCasts_S256000x32_S128x64000 : S256000x32.ShapeCasts S128x64000
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S256000_S4096000x1_S4096000_n_0_0_1_wf : ScatterDims.WF S256000 S4096000x1 S4096000 [] [0] [0] 1
  gather_S256000_S4096000x1_S4096000_n_0_n_n_0_1_1_wf : GatherDims.WF S256000 S4096000x1 S4096000 [] [0] [] [0] [] 1 ![1]
  dot_S256000x1_S1x32_S256000x32_1_0_0_1_n_n_wf : DotDims.WF S256000x1 S1x32 S256000x32 [1] [0] [0] [1] [] []
  gather_S256000x1_S4096000x1_S4096000x1_1_0_n_n_0_1_11_wf : GatherDims.WF S256000x1 S4096000x1 S4096000x1 [1] [0] [] [0] [] 1 ![1, 1]
  scatter_S256000x1_S4096000x1_S4096000x1_1_0_0_1_wf : ScatterDims.WF S256000x1 S4096000x1 S4096000x1 [1] [0] [0] 1
  dot_S128x64000_S64000x2_S128x2_1_0_0_1_n_n_wf : DotDims.WF S128x64000 S64000x2 S128x2 [1] [0] [0] [1] [] []

variable [Facts₀]

def scatter_S256000_S4096000x1_S4096000_n_0_0_1 : ScatterDims S256000 S4096000x1 S4096000 where
  updateWindowDims := []
  insertedWindowDims := [0]
  scatterDimsToOperandDims := [0]
  indexVectorDim := 1
  wf := scatter_S256000_S4096000x1_S4096000_n_0_0_1_wf
def gather_S256000_S4096000x1_S4096000_n_0_n_n_0_1_1 : GatherDims S256000 S4096000x1 S4096000 where
  offsetDims := []
  collapsedSliceDims := [0]
  operandBatchingDims := []
  startIndicesBatchingDims := []
  startIndexMap := [0]
  indexVectorDim := 1
  sliceSizes := ![1]
  wf := gather_S256000_S4096000x1_S4096000_n_0_n_n_0_1_1_wf
def dot_S256000x1_S1x32_S256000x32_1_0_0_1_n_n : DotDims S256000x1 S1x32 S256000x32 where
  lhsContracting := [1]
  rhsContracting := [0]
  lhsNonContracting := [0]
  rhsNonContracting := [1]
  lhsBatch := []
  rhsBatch := []
  wf := dot_S256000x1_S1x32_S256000x32_1_0_0_1_n_n_wf
def gather_S256000x1_S4096000x1_S4096000x1_1_0_n_n_0_1_11 : GatherDims S256000x1 S4096000x1 S4096000x1 where
  offsetDims := [1]
  collapsedSliceDims := [0]
  operandBatchingDims := []
  startIndicesBatchingDims := []
  startIndexMap := [0]
  indexVectorDim := 1
  sliceSizes := ![1, 1]
  wf := gather_S256000x1_S4096000x1_S4096000x1_1_0_n_n_0_1_11_wf
def scatter_S256000x1_S4096000x1_S4096000x1_1_0_0_1 : ScatterDims S256000x1 S4096000x1 S4096000x1 where
  updateWindowDims := [1]
  insertedWindowDims := [0]
  scatterDimsToOperandDims := [0]
  indexVectorDim := 1
  wf := scatter_S256000x1_S4096000x1_S4096000x1_1_0_0_1_wf
def dot_S128x64000_S64000x2_S128x2_1_0_0_1_n_n : DotDims S128x64000 S64000x2 S128x2 where
  lhsContracting := [1]
  rhsContracting := [0]
  lhsNonContracting := [0]
  rhsNonContracting := [1]
  lhsBatch := []
  rhsBatch := []
  wf := dot_S128x64000_S64000x2_S128x2_1_0_0_1_n_n_wf

class Facts : Prop extends Facts₀ where

variable [Facts]
-- ==== Proof.K.Region0.lean ====
/-
  The first kernel region, point by point.

  The region walks the 256000 nodes in 32 blocks of 8000. At a point it holds block `t` of the stacked Chebyshev terms
  (8000 x 5), the whole 5 x 32 weight matrix and the whole bias, and it leaves in the output window's buffer the block
  of hidden activations (8000 x 32): one store of one value computed from the three loads. The invariant is the scoped
  rest and the generator register, which the body never touches.
-/
import proofs.«152607_j82463372083215_1_alg».proof.Proof.Gen.Kernel.Launch
import proofs.«152607_j82463372083215_1_alg».proof.Proof.Gen.Kernel.Skeleton
import proofs.«152607_j82463372083215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: the block index moves only where
    the window is fetched. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S8000x5 := Rect.unit (s := S8000x5) ![0, 0] S8000x5.size inb_S8000x5_S8000x5_0_0
abbrev r0_1 : Rect S5x32 := Rect.unit (s := S5x32) ![0, 0] S5x32.size inb_S5x32_S5x32_0_0
abbrev r0_2 : Rect S32 := Rect.unit (s := S32) ![0] S32.size inb_S32_S32_0
abbrev r0_3 : Rect S8000x32 := Rect.unit (s := S8000x32) ![0, 0] S8000x32.size inb_S8000x32_S8000x32_0_0

/-- What the body leaves in the output window's buffer: its one store, of the activations of the three loads. -/
def out0_3 (x0 : Vec F S8000x5 .f32) (x1 : Vec F S5x32 .f32) (x2 : Vec F S32 .f32) : Vec F S8000x32 .f32 :=
  View.canon [⟨r0_3, k0_pay1 (View.ld x0 r0_0) (View.ld x1 r0_1) (View.ld x2 r0_2)⟩]

/-- The store covers the buffer. -/
theorem cover0_3 (p0 : Vec F S8000x32 .f32) (y : S8000x32.Idx) :
    ∃ pc ∈ ([⟨r0_3, p0⟩] : List (View.Piece (Elt F) S8000x32 .f32)), y ∈ pc.1.set :=
  View.cover_of_tiled [⟨r0_3, p0⟩] S8000x32.size (by rfl) y

set_option maxHeartbeats 1000000 in
/-- The body on whole buffers: the three inputs at known contents, the output at anything; it returns the inputs as
    they were and the output at `out0_3` of them. -/
theorem sound_kernel0 (c : Dev nD) (E : Set ℕ) (i : grid0.Coords)
    (arg1 : Memref sig .tc .vmem S8000x5 .f32) (harg1 : arg1.IsWhole) (arg2 : Memref sig .tc .vmem S5x32 .f32) (harg2 : arg2.IsWhole)
    (arg3 : Memref sig .tc .vmem S32 .f32) (harg3 : arg3.IsWhole) (arg4 : Memref sig .tc .vmem S8000x32 .f32) (harg4 : arg4.IsWhole)
    (x0 : Vec F S8000x5 .f32) (x1 : Vec F S5x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_relu_kernel i arg1 harg1 arg2 harg2 arg3 harg3 arg4 harg4) K := by
  simp only [cc0__cheb_relu_kernel_eq_skeleton]; unfold cc0__cheb_relu_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body each input's buffer at
    its block and the output's at `out0_3` of the blocks; the invariant the scoped rest and the generator register;
    nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.Runs1.lean ====
/-
  The second kernel region: what its three cases are stated over.

  The region walks the 64000 features in 10 blocks of 6400. At a point it holds block `t` of the activations
  (128 x 6400), block `t` of the dense weights (6400 x 2), the whole bias (2) and the output window (128 x 2); beside
  them a scratch accumulator (128 x 2) that it carries from point to point. Two conditions on the grid coordinate split
  the points: at the first point the accumulator is reset before the block's product is added to it, and at the last
  point the accumulator plus the bias is stored into the output window. At every other point the output window is idle.
-/
import proofs.«152607_j82463372083215_1_alg».proof.Proof.K.Region0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first condition: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second condition: the grid coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The buffers the body is called with -/

/-- One buffer of the output window, through which its contents are stated. -/
abbrev VO1_3 : View sig .tc .vmem S128x2 .f32 := (Memref.whole cc1_stg3_0 : Memref sig .tc .vmem S128x2 .f32).view
abbrev ms1_0 (t : Fin cfg1.N) : Memref sig .tc .vmem S128x6400 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6400x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x2 .f32 := Memref.whole cc1_scratch0
abbrev VS1_0 : View sig .tc .vmem S128x2 .f32 := scM1_0.view

/-- The other regions' scoped buffers, each at some contents: carried through this region unopened. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the accumulator as a buffer owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.Kernel.Fr

end
-- ==== Proof.K.Run1A.lean ====
/-
  The second kernel region's body in case A: the first point. The accumulator is reset to zero, the block's product is added to it, and the output window is left alone.
-/
import proofs.«152607_j82463372083215_1_alg».proof.Proof.K.Runs1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case A, with the proof
    that on whole buffers the body runs to the continuation holding the inputs as they were and those pieces written. -/
noncomputable def kernelRun1_A (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : cond1_0 i) (hc1 : ¬cond1_1 i)
    (x0 : Vec F S128x6400 .f32) (x1 : Vec F S6400x2 .f32) :
    Σ' (L3 : List (View.Piece (Elt F) S128x2 .f32)), { LS0 : List (View.Piece (Elt F) S128x2 .f32) //
      ∀ (x2 : Vec F S2 .f32) (xi3 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨[], ?_, fun x2 xi3 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.K.Run1B.lean ====
/-
  The second kernel region's body in case B: a point that is neither the first nor the last. The block's product is added to the accumulator the point before left, and the output window is left alone.
-/
import proofs.«152607_j82463372083215_1_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case B, with the proof
    that on whole buffers the body runs to the continuation holding the inputs as they were and those pieces written. -/
noncomputable def kernelRun1_B (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) :
    Σ' (L3 : List (View.Piece (Elt F) S128x2 .f32)), { LS0 : List (View.Piece (Elt F) S128x2 .f32) //
      ∀ (x2 : Vec F S2 .f32) (xi3 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨[], ?_, fun x2 xi3 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.K.Run1C.lean ====
/-
  The second kernel region's body in case C: the last point. The block's product is added to the accumulator the point before left, and the sum plus the bias is stored into the output window.
-/
import proofs.«152607_j82463372083215_1_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case C, with the proof
    that on whole buffers the body runs to the continuation holding the inputs as they were and those pieces written. -/
noncomputable def kernelRun1_C (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) :
    Σ' (L3 : List (View.Piece (Elt F) S128x2 .f32)), { LS0 : List (View.Piece (Elt F) S128x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Fr

end
-- ==== Proof.K.Region1.lean ====
/-
  The second kernel region, point by point: what the accumulator and the output window hold after each point, the
  invariant that carries the accumulator from one point to the next, and the body obligation.
-/
import proofs.«152607_j82463372083215_1_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves, read back from its pieces -/

def out1_A_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) : Vec F S128x2 .f32 :=
  VO1_3.read (Elt F) (VO1_3.writes (Elt F) VO1_3.junk (kernelRun1_A c i arg1 harg1 arg2 harg2 arg3 harg3 arg4 harg4 arg5 harg5 hc0 hc1 x0 x1).1)
theorem scover1_A_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) (y : S128x2.Idx) :
    ∃ pc ∈ (kernelRun1_A c i arg1 harg1 arg2 harg2 arg3 harg3 arg4 harg4 arg5 harg5 hc0 hc1 x0 x1).2.1, y ∈ pc.1.set :=
  View.cover_of_tiledL (kernelRun1_A c i arg1 harg1 arg2 harg2 arg3 harg3 arg4 harg4 arg5 harg5 hc0 hc1 x0 x1).2.1 S128x2.size (by sl_kernel_rfl) y
def sout1_A_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) : Vec F S128x2 .f32 :=
  VS1_0.read (Elt F) (VS1_0.writes (Elt F) VS1_0.junk (kernelRun1_A c i arg1 harg1 arg2 harg2 arg3 harg3 arg4 harg4 arg5 harg5 hc0 hc1 x0 x1).2.1)

def out1_B_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) : Vec F S128x2 .f32 :=
  VO1_3.read (Elt F) (VO1_3.writes (Elt F) VO1_3.junk (kernelRun1_B c i arg1 harg1 arg2 harg2 arg3 harg3 arg4 harg4 arg5 harg5 hc0 hc1 x0 x1 xs0).1)
theorem scover1_B_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) (y : S128x2.Idx) :
    ∃ pc ∈ (kernelRun1_B c i arg1 harg1 arg2 harg2 arg3 harg3 arg4 harg4 arg5 harg5 hc0 hc1 x0 x1 xs0).2.1, y ∈ pc.1.set :=
  View.cover_of_tiledL (kernelRun1_B c i arg1 harg1 arg2 harg2 arg3 harg3 arg4 harg4 arg5 harg5 hc0 hc1 x0 x1 xs0).2.1 S128x2.size (by sl_kernel_rfl) y
def sout1_B_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) : Vec F S128x2 .f32 :=
  VS1_0.read (Elt F) (VS1_0.writes (Elt F) VS1_0.junk (kernelRun1_B c i arg1 harg1 arg2 harg2 arg3 harg3 arg4 harg4 arg5 harg5 hc0 hc1 x0 x1 xs0).2.1)

theorem cover1_C_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) (y : S128x2.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S128x2.size (by sl_kernel_rfl) y
def out1_C_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) : Vec F S128x2 .f32 :=
  VO1_3.read (Elt F) (VO1_3.writes (Elt F) VO1_3.junk (kernelRun1_C c i arg1 harg1 arg2 harg2 arg3 harg3 arg4 harg4 arg5 harg5 hc0 hc1 x0 x1 x2 xs0).1)
theorem scover1_C_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) (y : S128x2.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S128x2.size (by sl_kernel_rfl) y
def sout1_C_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) : Vec F S128x2 .f32 :=
  VS1_0.read (Elt F) (VS1_0.writes (Elt F) VS1_0.junk (kernelRun1_C c i arg1 harg1 arg2 harg2 arg3 harg3 arg4 harg4 arg5 harg5 hc0 hc1 x0 x1 x2 xs0).2.1)

section Region1
variable (V : (c : Dev nD) → (b : Ref sig .tc) → Buf (Elt F) ((c : Thread nD τ).loc b))

/-! ## The accumulation -/

theorem lt10 {n : ℕ} (hn : n < cfg1.N) : n < 10 := lt_of_lt_of_eq hn (show cfg1.N = 10 from N_1)

/-- What the output window's buffer and the accumulator hold after the body at position `n`: the first point's case at
    0; afterwards the middle case, or at position 9 the last case, over the accumulator the position before left. -/
def outsAt1 (c : Dev nD) : (n : ℕ) → n < cfg1.N → Vec F S128x2 .f32 × Vec F S128x2 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => absurd ((hcond1_1 ⟨0, hn⟩).mp h) (by show ¬ (0 : ℕ) % 10 = 9; omega)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => absurd ((hcond1_1 ⟨0, hn⟩).mp h) (by show ¬ (0 : ℕ) % 10 = 9; omega)) (iblk1 V c 0 ⟨0, hn⟩) (iblk1 V c 1 ⟨0, hn⟩))
  | n + 1, hn =>
    if h1 : (n + 1) % 10 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) (fun h => h1 ((hcond1_1 ⟨n + 1, hn⟩).mp h)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have := lt10 hn; (try dsimp only at h0); omega)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The invariant before position `n`: before the first point the class's (the accumulator at anything); afterwards the
    accumulator at what the position before left, the other scoped buffers at anything, the generator register at some
    state. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 10 := lt10 t.isLt
  by_cases h0 : t.val % 10 = 0
  · by_cases h1 : t.val % 10 = 9
    · exfalso; omega
    · have hz : t.val = 0 := by omega
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      rw [PhiS_castSucc V c t, PhiS_zero V c _ _ hz, PhiA1_eq]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_B_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold others1
  iintro ⟨⟨HR0, HR1, HR2, HR3, HR4, HR5, HS0⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; iexact HS0
  iexact Hg

end Region1

end Cert.Kernel.Fr

end
-- ==== Proof.K.Folds.lean ====
/-
  The buffer contents at each boundary of the program's run: a fold from the launch memory through five stretches of
  host operations (the graph propagation and the stacking of the Chebyshev terms), the first kernel region, one more
  host operation (the activations re-laid as one row per graph), and the second kernel region.
-/
import proofs.«152607_j82463372083215_1_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each stretch of host operations before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first region is entered with. -/
abbrev V5 : (c : Dev nD) → (b : Ref sig .tc) → Buf (Elt F) ((c : Thread nD τ).loc b) := fun c b => W5 m ρ c b

/-- At the first region's exit: its arrays at what the write-backs leave, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host operation between the regions. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

/-- At the second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

end Cert.Kernel.Fr

end
-- ==== Proof.K.Run.lean ====
/-
  The run of the whole program: @main as eight segments in order — five stretches of host operations, the first kernel
  region, one host operation, the second kernel region — each entered from what the one before left. The thread state
  between two segments is every unscoped buffer at the boundary's contents, the generator register at some state, and
  the core owing nothing. At the end every unscoped buffer is read against the final state.
-/
import proofs.«152607_j82463372083215_1_alg».proof.Proof.K.Folds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m ρ 1 c).Φ 0 from hin1 (V7 m ρ) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m ρ 1 c).Φ (Fin.last _) ⊢ Pipeline.ΦA spec1 c from hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]

set_option maxHeartbeats 4000000 in
/-- @main is the run of the segments. -/
theorem main_run (c : Dev nD) : main (F := F) c = Pipeline.Seg.run (segs m ρ) := (main_chain c).trans (by chain_rfl)

set_option maxHeartbeats 4000000 in
set_option backward.isDefEq.respectTransparency.types false in
/-- From any memory with zero counters every weakly fair execution of @main on the TensorCores terminates, nothing
    faulting, and the final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Fr

end
-- ==== Proof.K.Args.lean ====
/-
  Each argument array ends as launched: no host operation writes one, and a region either reads it through an input
  window, which it gives back as found, or never touches it.
-/
import proofs.«152607_j82463372083215_1_alg».proof.Proof.K.Folds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem W5_main_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := by
        show StableHlo.after hostOps1 (W6 m ρ c) (Proc.devRef .tc main_arg0) = _
        after_results
    _ = W5 m ρ c (Proc.devRef .tc main_arg0) := W6_of_ne m ρ c main_arg0 (by decide)
    _ = m ((c : Thread nD τ).loc main_arg0) := W5_main_arg0 m ρ c

set_option maxHeartbeats 4000000 in
theorem W5_main_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by
        show StableHlo.after hostOps1 (W6 m ρ c) (Proc.devRef .tc main_arg1) = _
        after_results
    _ = W5 m ρ c (Proc.devRef .tc main_arg1) := W6_of_ne m ρ c main_arg1 (by decide)
    _ = m ((c : Thread nD τ).loc main_arg1) := W5_main_arg1 m ρ c

set_option maxHeartbeats 4000000 in
theorem W5_main_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by
        show StableHlo.after hostOps1 (W6 m ρ c) (Proc.devRef .tc main_arg2) = _
        after_results
    _ = W5 m ρ c (Proc.devRef .tc main_arg2) := W6_of_ne m ρ c main_arg2 (by decide)
    _ = m ((c : Thread nD τ).loc main_arg2) := W5_main_arg2 m ρ c

set_option maxHeartbeats 4000000 in
theorem W5_main_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by
        show StableHlo.after hostOps1 (W6 m ρ c) (Proc.devRef .tc main_arg3) = _
        after_results
    _ = W5 m ρ c (Proc.devRef .tc main_arg3) := W6_of_ne m ρ c main_arg3 (by decide)
    _ = m ((c : Thread nD τ).loc main_arg3) := W5_main_arg3 m ρ c

set_option maxHeartbeats 4000000 in
theorem W5_main_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by
        show StableHlo.after hostOps1 (W6 m ρ c) (Proc.devRef .tc main_arg4) = _
        after_results
    _ = W5 m ρ c (Proc.devRef .tc main_arg4) := (W6_arr m ρ c 2).trans (((dat0 (V5 m ρ) c).arrAt_in 2 rfl _).trans (A_eq0 (V5 m ρ) c 2))
    _ = m ((c : Thread nD τ).loc main_arg4) := W5_main_arg4 m ρ c

set_option maxHeartbeats 4000000 in
theorem W5_main_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := (W8_arr m ρ c 1).trans (((dat1 (V7 m ρ) c).arrAt_in 1 rfl _).trans (A_eq1 (V7 m ρ) c 1))
    _ = W6 m ρ c (Proc.devRef .tc main_arg5) := by
        show StableHlo.after hostOps1 (W6 m ρ c) (Proc.devRef .tc main_arg5) = _
        after_results
    _ = W5 m ρ c (Proc.devRef .tc main_arg5) := W6_of_ne m ρ c main_arg5 (by decide)
    _ = m ((c : Thread nD τ).loc main_arg5) := W5_main_arg5 m ρ c

set_option maxHeartbeats 4000000 in
theorem W5_main_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := by
        show StableHlo.after hostOps1 (W6 m ρ c) (Proc.devRef .tc main_arg6) = _
        after_results
    _ = W5 m ρ c (Proc.devRef .tc main_arg6) := W6_of_ne m ρ c main_arg6 (by decide)
    _ = m ((c : Thread nD τ).loc main_arg6) := W5_main_arg6 m ρ c

end Cert.Kernel.Fr

end
-- ==== Proof.KI.Region0.lean ====
/-
  The first kernel region, point by point.

  The region walks the 256000 nodes in 32 blocks of 8000. At a point it holds block `t` of the stacked Chebyshev terms
  (8000 x 5), the whole 5 x 32 weight matrix and the whole bias, and it leaves in the output window's buffer the block
  of hidden activations (8000 x 32): one store of one value computed from the three loads. The invariant is the scoped
  rest and the generator register, which the body never touches.
-/
import proofs.«152607_j82463372083215_1_alg».proof.Proof.Gen.KernelIdeal.Launch
import proofs.«152607_j82463372083215_1_alg».proof.Proof.Gen.KernelIdeal.Skeleton
import proofs.«152607_j82463372083215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: the block index moves only where
    the window is fetched. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S8000x5 := Rect.unit (s := S8000x5) ![0, 0] S8000x5.size inb_S8000x5_S8000x5_0_0
abbrev r0_1 : Rect S5x32 := Rect.unit (s := S5x32) ![0, 0] S5x32.size inb_S5x32_S5x32_0_0
abbrev r0_2 : Rect S32 := Rect.unit (s := S32) ![0] S32.size inb_S32_S32_0
abbrev r0_3 : Rect S8000x32 := Rect.unit (s := S8000x32) ![0, 0] S8000x32.size inb_S8000x32_S8000x32_0_0

/-- What the body leaves in the output window's buffer: its one store, of the activations of the three loads. -/
def out0_3 (x0 : Vec F S8000x5 .f32) (x1 : Vec F S5x32 .f32) (x2 : Vec F S32 .f32) : Vec F S8000x32 .f32 :=
  View.canon [⟨r0_3, k0_pay1 (View.ld x0 r0_0) (View.ld x1 r0_1) (View.ld x2 r0_2)⟩]

/-- The store covers the buffer. -/
theorem cover0_3 (p0 : Vec F S8000x32 .f32) (y : S8000x32.Idx) :
    ∃ pc ∈ ([⟨r0_3, p0⟩] : List (View.Piece (Elt F) S8000x32 .f32)), y ∈ pc.1.set :=
  View.cover_of_tiled [⟨r0_3, p0⟩] S8000x32.size (by rfl) y

set_option maxHeartbeats 1000000 in
/-- The body on whole buffers: the three inputs at known contents, the output at anything; it returns the inputs as
    they were and the output at `out0_3` of them. -/
theorem sound_kernel0 (c : Dev nD) (E : Set ℕ) (i : grid0.Coords)
    (arg1 : Memref sig .tc .vmem S8000x5 .f32) (harg1 : arg1.IsWhole) (arg2 : Memref sig .tc .vmem S5x32 .f32) (harg2 : arg2.IsWhole)
    (arg3 : Memref sig .tc .vmem S32 .f32) (harg3 : arg3.IsWhole) (arg4 : Memref sig .tc .vmem S8000x32 .f32) (harg4 : arg4.IsWhole)
    (x0 : Vec F S8000x5 .f32) (x1 : Vec F S5x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_relu_kernel i arg1 harg1 arg2 harg2 arg3 harg3 arg4 harg4) K := by
  simp only [cc0__cheb_relu_kernel_eq_skeleton]; unfold cc0__cheb_relu_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body each input's buffer at
    its block and the output's at `out0_3` of the blocks; the invariant the scoped rest and the generator register;
    nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Runs1.lean ====
/-
  The second kernel region: what its three cases are stated over.

  The region walks the 64000 features in 10 blocks of 6400. At a point it holds block `t` of the activations
  (128 x 6400), block `t` of the dense weights (6400 x 2), the whole bias (2) and the output window (128 x 2); beside
  them a scratch accumulator (128 x 2) that it carries from point to point. Two conditions on the grid coordinate split
  the points: at the first point the accumulator is reset before the block's product is added to it, and at the last
  point the accumulator plus the bias is stored into the output window. At every other point the output window is idle.
-/
import proofs.«152607_j82463372083215_1_alg».proof.Proof.KI.Region0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first condition: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second condition: the grid coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The buffers the body is called with -/

/-- One buffer of the output window, through which its contents are stated. -/
abbrev VO1_3 : View sig .tc .vmem S128x2 .f32 := (Memref.whole cc1_stg3_0 : Memref sig .tc .vmem S128x2 .f32).view
abbrev ms1_0 (t : Fin cfg1.N) : Memref sig .tc .vmem S128x6400 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6400x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x2 .f32 := Memref.whole cc1_scratch0
abbrev VS1_0 : View sig .tc .vmem S128x2 .f32 := scM1_0.view

/-- The other regions' scoped buffers, each at some contents: carried through this region unopened. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the accumulator as a buffer owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.KernelIdeal.Fr

end
-- ==== Proof.KI.Run1A.lean ====
/-
  The second kernel region's body in case A: the first point. The accumulator is reset to zero, the block's product is added to it, and the output window is left alone.
-/
import proofs.«152607_j82463372083215_1_alg».proof.Proof.KI.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case A, with the proof
    that on whole buffers the body runs to the continuation holding the inputs as they were and those pieces written. -/
noncomputable def kernelRun1_A (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : cond1_0 i) (hc1 : ¬cond1_1 i)
    (x0 : Vec F S128x6400 .f32) (x1 : Vec F S6400x2 .f32) :
    Σ' (L3 : List (View.Piece (Elt F) S128x2 .f32)), { LS0 : List (View.Piece (Elt F) S128x2 .f32) //
      ∀ (x2 : Vec F S2 .f32) (xi3 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨[], ?_, fun x2 xi3 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KI.Run1B.lean ====
/-
  The second kernel region's body in case B: a point that is neither the first nor the last. The block's product is added to the accumulator the point before left, and the output window is left alone.
-/
import proofs.«152607_j82463372083215_1_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case B, with the proof
    that on whole buffers the body runs to the continuation holding the inputs as they were and those pieces written. -/
noncomputable def kernelRun1_B (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) :
    Σ' (L3 : List (View.Piece (Elt F) S128x2 .f32)), { LS0 : List (View.Piece (Elt F) S128x2 .f32) //
      ∀ (x2 : Vec F S2 .f32) (xi3 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨[], ?_, fun x2 xi3 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KI.Run1C.lean ====
/-
  The second kernel region's body in case C: the last point. The block's product is added to the accumulator the point before left, and the sum plus the bias is stored into the output window.
-/
import proofs.«152607_j82463372083215_1_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output window's buffer and in the accumulator in case C, with the proof
    that on whole buffers the body runs to the continuation holding the inputs as they were and those pieces written. -/
noncomputable def kernelRun1_C (c : Dev nD) (i : grid1.Coords)
    (arg1 : Memref sig .tc .vmem S128x6400 .f32) (harg1 : arg1.IsWhole) (arg2 : Memref sig .tc .vmem S6400x2 .f32) (harg2 : arg2.IsWhole)
    (arg3 : Memref sig .tc .vmem S2 .f32) (harg3 : arg3.IsWhole) (arg4 : Memref sig .tc .vmem S128x2 .f32) (harg4 : arg4.IsWhole)
    (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) :
    Σ' (L3 : List (View.Piece (Elt F) S128x2 .f32)), { LS0 : List (View.Piece (Elt F) S128x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc1__final_kernel i arg1 harg1 arg2 harg2 arg3 harg3 arg4 harg4 arg5 harg5) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Fr

end
-- ==== Proof.KI.Region1.lean ====
/-
  The second kernel region, point by point: what the accumulator and the output window hold after each point, the
  invariant that carries the accumulator from one point to the next, and the body obligation.
-/
import proofs.«152607_j82463372083215_1_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves, read back from its pieces -/

def out1_A_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) : Vec F S128x2 .f32 :=
  VO1_3.read (Elt F) (VO1_3.writes (Elt F) VO1_3.junk (kernelRun1_A c i arg1 harg1 arg2 harg2 arg3 harg3 arg4 harg4 arg5 harg5 hc0 hc1 x0 x1).1)
theorem scover1_A_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) (y : S128x2.Idx) :
    ∃ pc ∈ (kernelRun1_A c i arg1 harg1 arg2 harg2 arg3 harg3 arg4 harg4 arg5 harg5 hc0 hc1 x0 x1).2.1, y ∈ pc.1.set :=
  View.cover_of_tiledL (kernelRun1_A c i arg1 harg1 arg2 harg2 arg3 harg3 arg4 harg4 arg5 harg5 hc0 hc1 x0 x1).2.1 S128x2.size (by sl_kernel_rfl) y
def sout1_A_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) : Vec F S128x2 .f32 :=
  VS1_0.read (Elt F) (VS1_0.writes (Elt F) VS1_0.junk (kernelRun1_A c i arg1 harg1 arg2 harg2 arg3 harg3 arg4 harg4 arg5 harg5 hc0 hc1 x0 x1).2.1)

def out1_B_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) : Vec F S128x2 .f32 :=
  VO1_3.read (Elt F) (VO1_3.writes (Elt F) VO1_3.junk (kernelRun1_B c i arg1 harg1 arg2 harg2 arg3 harg3 arg4 harg4 arg5 harg5 hc0 hc1 x0 x1 xs0).1)
theorem scover1_B_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) (y : S128x2.Idx) :
    ∃ pc ∈ (kernelRun1_B c i arg1 harg1 arg2 harg2 arg3 harg3 arg4 harg4 arg5 harg5 hc0 hc1 x0 x1 xs0).2.1, y ∈ pc.1.set :=
  View.cover_of_tiledL (kernelRun1_B c i arg1 harg1 arg2 harg2 arg3 harg3 arg4 harg4 arg5 harg5 hc0 hc1 x0 x1 xs0).2.1 S128x2.size (by sl_kernel_rfl) y
def sout1_B_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) : Vec F S128x2 .f32 :=
  VS1_0.read (Elt F) (VS1_0.writes (Elt F) VS1_0.junk (kernelRun1_B c i arg1 harg1 arg2 harg2 arg3 harg3 arg4 harg4 arg5 harg5 hc0 hc1 x0 x1 xs0).2.1)

theorem cover1_C_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) (y : S128x2.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S128x2.size (by sl_kernel_rfl) y
def out1_C_3 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) : Vec F S128x2 .f32 :=
  VO1_3.read (Elt F) (VO1_3.writes (Elt F) VO1_3.junk (kernelRun1_C c i arg1 harg1 arg2 harg2 arg3 harg3 arg4 harg4 arg5 harg5 hc0 hc1 x0 x1 x2 xs0).1)
theorem scover1_C_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) (y : S128x2.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S128x2.size (by sl_kernel_rfl) y
def sout1_C_0 (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) : Vec F S128x2 .f32 :=
  VS1_0.read (Elt F) (VS1_0.writes (Elt F) VS1_0.junk (kernelRun1_C c i arg1 harg1 arg2 harg2 arg3 harg3 arg4 harg4 arg5 harg5 hc0 hc1 x0 x1 x2 xs0).2.1)

section Region1
variable (V : (c : Dev nD) → (b : Ref sig .tc) → Buf (Elt F) ((c : Thread nD τ).loc b))

/-! ## The accumulation -/

theorem lt10 {n : ℕ} (hn : n < cfg1.N) : n < 10 := lt_of_lt_of_eq hn (show cfg1.N = 10 from N_1)

/-- What the output window's buffer and the accumulator hold after the body at position `n`: the first point's case at
    0; afterwards the middle case, or at position 9 the last case, over the accumulator the position before left. -/
def outsAt1 (c : Dev nD) : (n : ℕ) → n < cfg1.N → Vec F S128x2 .f32 × Vec F S128x2 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => absurd ((hcond1_1 ⟨0, hn⟩).mp h) (by show ¬ (0 : ℕ) % 10 = 9; omega)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => absurd ((hcond1_1 ⟨0, hn⟩).mp h) (by show ¬ (0 : ℕ) % 10 = 9; omega)) (iblk1 V c 0 ⟨0, hn⟩) (iblk1 V c 1 ⟨0, hn⟩))
  | n + 1, hn =>
    if h1 : (n + 1) % 10 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) (fun h => h1 ((hcond1_1 ⟨n + 1, hn⟩).mp h)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => absurd ((hcond1_0 ⟨n + 1, hn⟩).mp h) (by have := lt10 hn; show ¬ (n + 1) % 10 = 0; omega)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have := lt10 hn; (try dsimp only at h0); omega)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The invariant before position `n`: before the first point the class's (the accumulator at anything); afterwards the
    accumulator at what the position before left, the other scoped buffers at anything, the generator register at some
    state. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 10 := lt10 t.isLt
  by_cases h0 : t.val % 10 = 0
  · by_cases h1 : t.val % 10 = 9
    · exfalso; omega
    · have hz : t.val = 0 := by omega
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      rw [PhiS_castSucc V c t, PhiS_zero V c _ _ hz, PhiA1_eq]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      unfold others1
      iintro ⟨⟨⟨HR0, HR1, HR2, HR3, HR4, HR5, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_B_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold others1
  iintro ⟨⟨HR0, HR1, HR2, HR3, HR4, HR5, HS0⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; iexact HS0
  iexact Hg

end Region1

end Cert.KernelIdeal.Fr

end
-- ==== Proof.KI.Folds.lean ====
/-
  The buffer contents at each boundary of the program's run: a fold from the launch memory through five stretches of
  host operations (the graph propagation and the stacking of the Chebyshev terms), the first kernel region, one more
  host operation (the activations re-laid as one row per graph), and the second kernel region.
-/
import proofs.«152607_j82463372083215_1_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each stretch of host operations before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first region is entered with. -/
abbrev V5 : (c : Dev nD) → (b : Ref sig .tc) → Buf (Elt F) ((c : Thread nD τ).loc b) := fun c b => W5 m ρ c b

/-- At the first region's exit: its arrays at what the write-backs leave, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host operation between the regions. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

/-- At the second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

end Cert.KernelIdeal.Fr

end
-- ==== Proof.KI.Run.lean ====
/-
  The run of the whole program: @main as eight segments in order — five stretches of host operations, the first kernel
  region, one host operation, the second kernel region — each entered from what the one before left. The thread state
  between two segments is every unscoped buffer at the boundary's contents, the generator register at some state, and
  the core owing nothing. At the end every unscoped buffer is read against the final state.
-/
import proofs.«152607_j82463372083215_1_alg».proof.Proof.KI.Folds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m ρ 1 c).Φ 0 from hin1 (V7 m ρ) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m ρ 1 c).Φ (Fin.last _) ⊢ Pipeline.ΦA spec1 c from hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]

set_option maxHeartbeats 4000000 in
/-- @main is the run of the segments. -/
theorem main_run (c : Dev nD) : main (F := F) c = Pipeline.Seg.run (segs m ρ) := (main_chain c).trans (by chain_rfl)

set_option maxHeartbeats 4000000 in
set_option backward.isDefEq.respectTransparency.types false in
/-- From any memory with zero counters every weakly fair execution of @main on the TensorCores terminates, nothing
    faulting, and the final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Fr

end
-- ==== Proof.KI.Args.lean ====
/-
  Each argument array ends as launched: no host operation writes one, and a region either reads it through an input
  window, which it gives back as found, or never touches it.
-/
import proofs.«152607_j82463372083215_1_alg».proof.Proof.KI.Folds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem W5_main_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := by
        show StableHlo.after hostOps1 (W6 m ρ c) (Proc.devRef .tc main_arg0) = _
        after_results
    _ = W5 m ρ c (Proc.devRef .tc main_arg0) := W6_of_ne m ρ c main_arg0 (by decide)
    _ = m ((c : Thread nD τ).loc main_arg0) := W5_main_arg0 m ρ c

set_option maxHeartbeats 4000000 in
theorem W5_main_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by
        show StableHlo.after hostOps1 (W6 m ρ c) (Proc.devRef .tc main_arg1) = _
        after_results
    _ = W5 m ρ c (Proc.devRef .tc main_arg1) := W6_of_ne m ρ c main_arg1 (by decide)
    _ = m ((c : Thread nD τ).loc main_arg1) := W5_main_arg1 m ρ c

set_option maxHeartbeats 4000000 in
theorem W5_main_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by
        show StableHlo.after hostOps1 (W6 m ρ c) (Proc.devRef .tc main_arg2) = _
        after_results
    _ = W5 m ρ c (Proc.devRef .tc main_arg2) := W6_of_ne m ρ c main_arg2 (by decide)
    _ = m ((c : Thread nD τ).loc main_arg2) := W5_main_arg2 m ρ c

set_option maxHeartbeats 4000000 in
theorem W5_main_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by
        show StableHlo.after hostOps1 (W6 m ρ c) (Proc.devRef .tc main_arg3) = _
        after_results
    _ = W5 m ρ c (Proc.devRef .tc main_arg3) := W6_of_ne m ρ c main_arg3 (by decide)
    _ = m ((c : Thread nD τ).loc main_arg3) := W5_main_arg3 m ρ c

set_option maxHeartbeats 4000000 in
theorem W5_main_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by
        show StableHlo.after hostOps1 (W6 m ρ c) (Proc.devRef .tc main_arg4) = _
        after_results
    _ = W5 m ρ c (Proc.devRef .tc main_arg4) := (W6_arr m ρ c 2).trans (((dat0 (V5 m ρ) c).arrAt_in 2 rfl _).trans (A_eq0 (V5 m ρ) c 2))
    _ = m ((c : Thread nD τ).loc main_arg4) := W5_main_arg4 m ρ c

set_option maxHeartbeats 4000000 in
theorem W5_main_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := (W8_arr m ρ c 1).trans (((dat1 (V7 m ρ) c).arrAt_in 1 rfl _).trans (A_eq1 (V7 m ρ) c 1))
    _ = W6 m ρ c (Proc.devRef .tc main_arg5) := by
        show StableHlo.after hostOps1 (W6 m ρ c) (Proc.devRef .tc main_arg5) = _
        after_results
    _ = W5 m ρ c (Proc.devRef .tc main_arg5) := W6_of_ne m ρ c main_arg5 (by decide)
    _ = m ((c : Thread nD τ).loc main_arg5) := W5_main_arg5 m ρ c

set_option maxHeartbeats 4000000 in
theorem W5_main_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := by
        show StableHlo.after hostOps1 (W6 m ρ c) (Proc.devRef .tc main_arg6) = _
        after_results
    _ = W5 m ρ c (Proc.devRef .tc main_arg6) := W6_of_ne m ρ c main_arg6 (by decide)
    _ = m ((c : Thread nD τ).loc main_arg6) := W5_main_arg6 m ρ c

end Cert.KernelIdeal.Fr

end
-- ==== Proof.Frames.lean ====
/-
  The two kernel programs' frame claims: each program's run ends with every unscoped buffer at the last boundary's
  contents, and at an argument array those contents are the launch contents.
-/
import proofs.«152607_j82463372083215_1_alg».proof.Defs
import proofs.«152607_j82463372083215_1_alg».proof.Proof.K.Run
import proofs.«152607_j82463372083215_1_alg».proof.Proof.K.Args
import proofs.«152607_j82463372083215_1_alg».proof.Proof.KI.Run
import proofs.«152607_j82463372083215_1_alg».proof.Proof.KI.Args
import proofs.«152607_j82463372083215_1_alg».proof.Proof.Gen.Pre_finite_inputs

noncomputable section

namespace Cert.Proof.Frames

open Idealize.ShloMosaic Idealize.ShloMosaic.TcCoe Idealize.SL.Sem

theorem frame_k : Cert.frame_Kernel := fun m ρ _ =>
  (θ_run (Cert.Kernel.defs (F := Bits)) _ _).mono (fun r h c =>
    ⟨(h c _ (Cert.Kernel.Fr.mem_uc Cert.Kernel.main_arg0 (by decide))).trans (Cert.Kernel.Fr.W8_main_arg0 m ρ c),
     (h c _ (Cert.Kernel.Fr.mem_uc Cert.Kernel.main_arg1 (by decide))).trans (Cert.Kernel.Fr.W8_main_arg1 m ρ c),
     (h c _ (Cert.Kernel.Fr.mem_uc Cert.Kernel.main_arg2 (by decide))).trans (Cert.Kernel.Fr.W8_main_arg2 m ρ c),
     (h c _ (Cert.Kernel.Fr.mem_uc Cert.Kernel.main_arg3 (by decide))).trans (Cert.Kernel.Fr.W8_main_arg3 m ρ c),
     (h c _ (Cert.Kernel.Fr.mem_uc Cert.Kernel.main_arg4 (by decide))).trans (Cert.Kernel.Fr.W8_main_arg4 m ρ c),
     (h c _ (Cert.Kernel.Fr.mem_uc Cert.Kernel.main_arg5 (by decide))).trans (Cert.Kernel.Fr.W8_main_arg5 m ρ c),
     (h c _ (Cert.Kernel.Fr.mem_uc Cert.Kernel.main_arg6 (by decide))).trans (Cert.Kernel.Fr.W8_main_arg6 m ρ c)⟩)
    (Cert.Kernel.Fr.run_all (F := Bits) m ρ)

theorem frame_ki : Cert.frame_KernelIdeal := fun m ρ _ =>
  (θ_run (Cert.KernelIdeal.defs (F := Ideal)) _ _).mono (fun r h c =>
    ⟨(h c _ (Cert.KernelIdeal.Fr.mem_uc Cert.KernelIdeal.main_arg0 (by decide))).trans (Cert.KernelIdeal.Fr.W8_main_arg0 m ρ c),
     (h c _ (Cert.KernelIdeal.Fr.mem_uc Cert.KernelIdeal.main_arg1 (by decide))).trans (Cert.KernelIdeal.Fr.W8_main_arg1 m ρ c),
     (h c _ (Cert.KernelIdeal.Fr.mem_uc Cert.KernelIdeal.main_arg2 (by decide))).trans (Cert.KernelIdeal.Fr.W8_main_arg2 m ρ c),
     (h c _ (Cert.KernelIdeal.Fr.mem_uc Cert.KernelIdeal.main_arg3 (by decide))).trans (Cert.KernelIdeal.Fr.W8_main_arg3 m ρ c),
     (h c _ (Cert.KernelIdeal.Fr.mem_uc Cert.KernelIdeal.main_arg4 (by decide))).trans (Cert.KernelIdeal.Fr.W8_main_arg4 m ρ c),
     (h c _ (Cert.KernelIdeal.Fr.mem_uc Cert.KernelIdeal.main_arg5 (by decide))).trans (Cert.KernelIdeal.Fr.W8_main_arg5 m ρ c),
     (h c _ (Cert.KernelIdeal.Fr.mem_uc Cert.KernelIdeal.main_arg6 (by decide))).trans (Cert.KernelIdeal.Fr.W8_main_arg6 m ρ c)⟩)
    (Cert.KernelIdeal.Fr.run_all (F := Ideal) m ρ)

end Cert.Proof.Frames

end
-- ==== Proof.KI.Args7.lean ====
/-
  The dense layer's weights and bias as the second region finds them are the launch contents: no host operation and no
  window of the first region writes them.
-/
import proofs.«152607_j82463372083215_1_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by
        show StableHlo.after hostOps1 (W6 m ρ c) (Proc.devRef .tc main_arg5) = _
        after_results
    _ = W5 m ρ c (Proc.devRef .tc main_arg5) := W6_of_ne m ρ c main_arg5 (by decide)
    _ = m ((c : Thread nD τ).loc main_arg5) := W5_main_arg5 m ρ c

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by
        show StableHlo.after hostOps1 (W6 m ρ c) (Proc.devRef .tc main_arg6) = _
        after_results
    _ = W5 m ρ c (Proc.devRef .tc main_arg6) := W6_of_ne m ρ c main_arg6 (by decide)
    _ = m ((c : Thread nD τ).loc main_arg6) := W5_main_arg6 m ρ c

end Cert.KernelIdeal.Fr

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Payloads.lean ====
/-
  The values the two kernel bodies store, read at one index.

  Each body's stored value is one pure term of the values the body loads. Read at an index given by its coordinates, the
  layout steps (slices, shape casts, broadcasts) name one operand entry each and the arithmetic is the extended reals':
  * the first body stores, at (r, ch), the maximum with 0 of the five products x0 (r, k) * x1 (k, ch), k = 0 … 4, added
    left to right, plus the bias x2 ch;
  * the second body's first store is the zero block;
  * its second store adds to the accumulator, at (p, q), the sum over k of x0 (p, k) * x1 (k, q) (the narrowing of the
    operands to bf16 is the identity on extended reals);
  * its last store adds the bias row: at (p, q), the accumulator there plus lb q.
-/
import proofs.«152607_j82463372083215_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«152607_j82463372083215_1_alg».proof.Proof.LibBlock
import proofs.«152607_j82463372083215_1_alg».proof.Proof.LibColumn

noncomputable section

open scoped BigOperators

namespace Cert.KernelIdeal.PayAt

open Cert.KernelIdeal Cert.KernelIdeal.Gen Idealize.ShloMosaic Idealize.ShloMosaic.ValueIdx

/-- The second body's first store is the zero block. -/
theorem pay1_at (p : Fin 128) (q : Fin 2) : k1_pay1 (F := Ideal) (ix2 p q) = 0 := by
  unfold k1_pay1
  rw [shapeCast_self]
  exact Ideal.ofBits_zero_f32

/-- The second body's last store: the accumulator plus the bias row. -/
theorem pay3_at (acc : Vec Ideal S128x2 .f32) (lb : Vec Ideal S2 .f32) (p : Fin 128) (q : Fin 2) :
    k1_pay3 (F := Ideal) acc lb (ix2 p q) = acc (ix2 p q) + lb (ix1 q) := by
  unfold k1_pay3
  rw [addf_apply]
  refine congrArg (acc (ix2 p q) + ·) ?_
  refine (broadcastTo_1b_ab_apply _ _ p q).trans ?_
  exact shapeCast_a_1a_apply lb _ (0 : Fin 1) q

/-- The second body's accumulating store: the accumulator plus the block product, the sum over the contracted coordinate
    of the operands' products. -/
theorem pay2_at (x0 : Vec Ideal S128x6400 .f32) (x1 : Vec Ideal S6400x2 .f32) (acc : Vec Ideal S128x2 .f32)
    (p : Fin 128) (q : Fin 2) :
    k1_pay2 (F := Ideal) x0 x1 acc (ix2 p q) = acc (ix2 p q) + ∑ k : Fin 6400, x0 (ix2 p k) * x1 (ix2 k q) := by
  unfold k1_pay2
  rw [shapeCast_self, addf_apply]
  refine congrArg (acc (ix2 p q) + ·) ?_
  refine (Cert.LibBlock.matmul_zero_ix2 dot_S128x6400_S6400x2_S128x2_1_0_0_1_n_n rfl rfl rfl rfl rfl rfl none _ _ p q).trans ?_
  refine Finset.sum_congr rfl fun k _ => ?_
  rw [truncf_apply, truncf_apply, shapeCast_self]

/-- One term of the first body's sum: column `o` of `x0` spread over the lanes times row `o` of `x1` spread over the
    rows, read at `(r, ch)`, is `x0 (r, o) * x1 (o, ch)`. -/
theorem prod_at (x0 : FVec Ideal S8000x5 .f32) (x1 : FVec Ideal S5x32 .f32) (o : ℕ) (k : Fin 5) (hk : k.val = o)
    (hs0 : S8000x5.Slices ![0, o] S8000x1) (hs1 : S5x32.Slices ![o, 0] S1x32)
    (h1 : S1x32.ShapeCasts S32) (h2 : S32.ShapeCasts S1x32)
    (hb0 : S8000x1.Broadcasts S8000x32) (hb1 : S1x32.Broadcasts S8000x32) (r : Fin 8000) (ch : Fin 32) :
    mulf (broadcastTo S8000x32 (extractStridedSlice S8000x1 ![0, o] x0 hs0) hb0)
        (broadcastTo S8000x32 (shapeCast S1x32 (shapeCast S32 (extractStridedSlice S1x32 ![o, 0] x1 hs1) h1) h2) hb1)
        (ix2 r ch)
      = x0 (ix2 r k) * x1 (ix2 k ch) := by
  rw [mulf_apply]
  have el : broadcastTo S8000x32 (extractStridedSlice S8000x1 ![0, o] x0 hs0) hb0 (ix2 r ch) = x0 (ix2 r k) :=
    (Cert.LibColumn.broadcastTo_a1_ab_apply _ hb0 r ch).trans
      (slice2_axis1_apply o x0 hs0 r (0 : Fin 1) k (by rw [hk]; rfl))
  have er : broadcastTo S8000x32 (shapeCast S1x32 (shapeCast S32 (extractStridedSlice S1x32 ![o, 0] x1 hs1) h1) h2) hb1
      (ix2 r ch) = x1 (ix2 k ch) :=
    (broadcastTo_1b_ab_apply _ hb1 r ch).trans
      ((shapeCast_a_1a_apply _ h2 (0 : Fin 1) ch).trans
        ((shapeCast_1a_a_apply _ h1 ch).trans
          (slice2_axis0_apply o x1 hs1 (0 : Fin 1) ch k (by rw [hk]; rfl))))
  rw [el, er]

/-- The first body's store at `(r, ch)`: the five products added left to right, plus the bias, cut off below at 0. -/
theorem pay0_at (x0 : Vec Ideal S8000x5 .f32) (x1 : Vec Ideal S5x32 .f32) (x2 : Vec Ideal S32 .f32)
    (r : Fin 8000) (ch : Fin 32) :
    k0_pay1 (F := Ideal) x0 x1 x2 (ix2 r ch)
      = max (((((x0 (ix2 r 0) * x1 (ix2 0 ch) + x0 (ix2 r 1) * x1 (ix2 1 ch)) + x0 (ix2 r 2) * x1 (ix2 2 ch))
          + x0 (ix2 r 3) * x1 (ix2 3 ch)) + x0 (ix2 r 4) * x1 (ix2 4 ch)) + x2 (ix1 ch)) 0 := by
  unfold k0_pay1
  rw [shapeCast_self x0, shapeCast_self x1, maximumf_apply, addf_apply, addf_apply, addf_apply, addf_apply, addf_apply,
    prod_at x0 x1 0 0 rfl, prod_at x0 x1 1 1 rfl, prod_at x0 x1 2 2 rfl, prod_at x0 x1 3 3 rfl, prod_at x0 x1 4 4 rfl]
  have eb : ∀ (h2 : S32.ShapeCasts S1x32) (hb1 : S1x32.Broadcasts S8000x32),
      broadcastTo S8000x32 (shapeCast S1x32 x2 h2) hb1 (ix2 r ch) = x2 (ix1 ch) := fun h2 hb1 =>
    (broadcastTo_1b_ab_apply _ hb1 r ch).trans (shapeCast_a_1a_apply x2 h2 (0 : Fin 1) ch)
  rw [eb]
  exact congrArg (max _) Ideal.ofBits_zero_f32

end Cert.KernelIdeal.PayAt

end
-- ==== Proof.KI.Value0.lean ====
/-
  The first region's result as one function of the arrays it is entered with.

  Point `t` of the region writes back rows 8000 t … 8000 t + 7999 of the activation array; its block of the stacked
  Chebyshev terms is the same rows, the weights and the bias are whole. So every flushed block is the restriction of one
  function of the whole arrays — node `n`, channel `c` ↦ max (((((X n 0 · W 0 c + X n 1 · W 1 c) + X n 2 · W 2 c) + X n 3 · W 3 c)
  + X n 4 · W 4 c) + b c) 0 — and the 32 blocks cover the array.
-/
import proofs.«152607_j82463372083215_1_alg».proof.Proof.KI.Region0
import proofs.«152607_j82463372083215_1_alg».proof.Proof.KI.Payloads
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem hz2' : (![0, 0] : Fin 2 → Nat) = fun _ => 0 := by funext a; match a with | ⟨0, _⟩ => rfl | ⟨1, _⟩ => rfl
theorem hz1' : (![0] : Fin 1 → Nat) = fun _ => 0 := by funext a; match a with | ⟨0, _⟩ => rfl

/-- The activation of node `n`, channel `ch`, from the stacked terms, the weight matrix and the bias. -/
def act (X : Vec Ideal S256000x5 .f32) (Wt : Vec Ideal S5x32 .f32) (b : Vec Ideal S32 .f32) (n : Fin 256000) (ch : Fin 32) : EReal :=
  max (((((X (ix2 n 0) * Wt (ix2 0 ch) + X (ix2 n 1) * Wt (ix2 1 ch)) + X (ix2 n 2) * Wt (ix2 2 ch)) + X (ix2 n 3) * Wt (ix2 3 ch))
    + X (ix2 n 4) * Wt (ix2 4 ch)) + b (ix1 ch)) 0

/-- The whole activation array. -/
def G0 (X : Vec Ideal S256000x5 .f32) (Wt : Vec Ideal S5x32 .f32) (b : Vec Ideal S32 .f32) : Vec Ideal S256000x32 .f32 :=
  fun i => act X Wt b (i 0) (i 1)

section
variable (V : (c : Dev nD) → (b : Ref sig .tc) → Buf (Elt Ideal) ((c : Thread nD τ).loc b))

/-- The printed index maps over the grid: the output's row block is the point, the stacked terms move with it, the weights
    and the bias stay. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

theorem lt32 (t : Fin cfg0.N) : t.val < 32 := lt_of_lt_of_eq t.isLt (show cfg0.N = 32 from N_0)

/-- The stacked terms' block at a point, read at a row and a column. -/
theorem blk0_0_at (c : Dev nD) (t : Fin cfg0.N) (r : Fin 8000) (k : Fin 5) :
    iblk0 V c 0 t (ix2 r k) = V c main_v89 (ix2 (⟨8000 * t.val + r.val, by have := lt32 t; omega⟩ : Fin 256000) k) := by
  obtain ⟨-, -, e0, e1, -, -, -⟩ := idx_facts0 t
  show V c main_v89 (((cfg0.win 0).blk t).view.emb (ix2 r k)) = _
  refine congrArg (V c main_v89) ?_
  funext a; apply Fin.ext
  match a with
  | ⟨0, _⟩ => show win0_0.index t (0 : Fin 2) * 8000 + 1 * r.val = 8000 * t.val + r.val; omega
  | ⟨1, _⟩ => show win0_0.index t (1 : Fin 2) * 5 + 1 * k.val = k.val; omega

/-- The weights' block is the whole matrix. -/
theorem blk0_1_at (c : Dev nD) (t : Fin cfg0.N) (k : Fin 5) (ch : Fin 32) :
    iblk0 V c 1 t (ix2 k ch) = V c main_v90 (ix2 k ch) := by
  obtain ⟨-, -, -, -, e0, e1, -⟩ := idx_facts0 t
  show V c main_v90 (((cfg0.win 1).blk t).view.emb (ix2 k ch)) = _
  refine congrArg (V c main_v90) ?_
  funext a; apply Fin.ext
  match a with
  | ⟨0, _⟩ => show win0_1.index t (0 : Fin 2) * 5 + 1 * k.val = k.val; omega
  | ⟨1, _⟩ => show win0_1.index t (1 : Fin 2) * 32 + 1 * ch.val = ch.val; omega

/-- The bias' block is the whole vector. -/
theorem blk0_2_at (c : Dev nD) (t : Fin cfg0.N) (ch : Fin 32) :
    iblk0 V c 2 t (ix1 ch) = V c main_arg4 (ix1 ch) := by
  obtain ⟨-, -, -, -, -, -, e0⟩ := idx_facts0 t
  show V c main_arg4 (((cfg0.win 2).blk t).view.emb (ix1 ch)) = _
  refine congrArg (V c main_arg4) ?_
  funext a; apply Fin.ext
  match a with
  | ⟨0, _⟩ => show win0_2.index t (0 : Fin 1) * 32 + 1 * ch.val = ch.val; omega

/-- What point `t` writes back is block `t` of the activation array. -/
theorem flushed0_eq (c : Dev nD) (t : Fin cfg0.N) :
    (dat0 V c).flushed 3 t = ((cfg0.win 3).blk t).view.read (Elt Ideal) (G0 (V c main_v89) (V c main_v90) (V c main_arg4)) := by
  show (cfg0.win 3).cut (grid0.coords t) ((dat0 V c).after 3 t) = _
  rw [after0_3]
  unfold out0_3
  rw [View.canon_unit_zero hz2']
  simp only [View.ld_unit_zero (S := S8000x5) hz2', View.ld_unit_zero (S := S5x32) hz2', View.ld_unit_zero (S := S32) hz1']
  obtain ⟨e0, e1, -, -, -, -, -⟩ := idx_facts0 t
  funext j
  obtain ⟨r, ch, rfl⟩ : ∃ (r : Fin 8000) (ch : Fin 32), j = ix2 r ch := ⟨j 0, j 1, eq_ix2 j⟩
  refine (Cert.KernelIdeal.PayAt.pay0_at _ _ _ r ch).trans ?_
  rw [blk0_0_at V c t r 0, blk0_0_at V c t r 1, blk0_0_at V c t r 2, blk0_0_at V c t r 3, blk0_0_at V c t r 4,
    blk0_1_at V c t 0 ch, blk0_1_at V c t 1 ch, blk0_1_at V c t 2 ch, blk0_1_at V c t 3 ch, blk0_1_at V c t 4 ch, blk0_2_at V c t ch]
  show _ = G0 (V c main_v89) (V c main_v90) (V c main_arg4) (((cfg0.win 3).blk t).view.emb (ix2 r ch))
  have hemb : ((cfg0.win 3).blk t).view.emb (ix2 r ch) = ix2 (⟨8000 * t.val + r.val, by have := lt32 t; omega⟩ : Fin 256000) ch := by
    funext a; apply Fin.ext
    match a with
    | ⟨0, _⟩ => show win0_3.index t (0 : Fin 2) * 8000 + 1 * r.val = 8000 * t.val + r.val; omega
    | ⟨1, _⟩ => show win0_3.index t (1 : Fin 2) * 32 + 1 * ch.val = ch.val; omega
  rw [hemb]
  rfl

/-- An index of the array is in point `t`'s block iff each coordinate is in the block's range. -/
theorem mem_blk0 (t : Fin cfg0.N) (i : S256000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v91).slice (win0_3.rect t)).set ↔ _
  rw [View.set_slice_whole, Rect.mem_set_unit]
  exact Iff.rfl

/-- The 32 blocks cover the array: row `n` is in block `n / 8000`. -/
theorem cover0 (i : S256000x32.Idx) : ∃ t : Fin cfg0.N, (cfg0.win 3).flush t = true ∧ i ∈ ((cfg0.win 3).blk t).view.set := by
  have hi0 : (i 0).val < 256000 := (i 0).isLt
  have hi1 : (i 1).val < 32 := (i 1).isLt
  have hlt : (i 0).val / 8000 < cfg0.N := by rw [show cfg0.N = 32 from N_0]; omega
  refine ⟨⟨(i 0).val / 8000, hlt⟩, flush0_3 _, ?_⟩
  rw [mem_blk0]
  obtain ⟨e0, e1, -, -, -, -, -⟩ := idx_facts0 ⟨(i 0).val / 8000, hlt⟩
  intro a
  match a with
  | ⟨0, _⟩ =>
    show win0_3.index ⟨(i 0).val / 8000, _⟩ (0 : Fin 2) * 8000 ≤ (i 0).val ∧ (i 0).val < win0_3.index ⟨(i 0).val / 8000, _⟩ (0 : Fin 2) * 8000 + 8000
    have e0' : win0_3.index ⟨(i 0).val / 8000, hlt⟩ (0 : Fin 2) = (i 0).val / 8000 := e0
    omega
  | ⟨1, _⟩ =>
    show win0_3.index ⟨(i 0).val / 8000, _⟩ (1 : Fin 2) * 32 ≤ (i 1).val ∧ (i 1).val < win0_3.index ⟨(i 0).val / 8000, _⟩ (1 : Fin 2) * 32 + 32
    omega

/-- The activation array after the region. -/
theorem final0 (c : Dev nD) : (dat0 V c).arrAt 3 cfg0.N = G0 (V c main_v89) (V c main_v90) (V c main_arg4) :=
  (dat0 V c).arrAt_eq_of_cover 3 _ (fun t _ => flushed0_eq V c t) cover0

end

end Cert.KernelIdeal.Fr

end
-- ==== Proof.KI.Pieces1.lean ====
/-
  What each case of the second region's body leaves, as the body's arithmetic of what it was handed: the accumulator
  after the first point is the block's product added to zero, after any later point the block's product added to what
  it held, and the output window at the last point is that sum plus the bias row.
-/
import proofs.«152607_j82463372083215_1_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := by funext a; match a with | ⟨0, _⟩ => rfl | ⟨1, _⟩ => rfl
theorem hz1 : (![0] : Fin 1 → Nat) = fun _ => 0 := by funext a; match a with | ⟨0, _⟩ => rfl

theorem sout1_A_0_eq (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : cond1_0 i) (hc1 : ¬cond1_1 i)
    (x0 : Vec F S128x6400 .f32) (x1 : Vec F S6400x2 .f32) :
    sout1_A_0 c i arg1 harg1 arg2 harg2 arg3 harg3 arg4 harg4 arg5 harg5 hc0 hc1 x0 x1 = k1_pay2 x0 x1 (k1_pay1 (F := F)) := by
  unfold sout1_A_0
  rw [View.read_writes_eq_canon _ _ _ (scover1_A_0 c i arg1 harg1 arg2 harg2 arg3 harg3 arg4 harg4 arg5 harg5 hc0 hc1 x0 x1)]
  unfold kernelRun1_A
  dsimp only
  sl_unfold_words
  rw [View.canon_cons_unit_zero hz2, View.readCov_unit_zero _ hz2]
  simp only [View.readAt_eq_ld, harg1.read_unread, harg2.read_unread]
  rw [View.ld_unit_zero (S := S128x6400) hz2, View.ld_unit_zero (S := S6400x2) hz2]

theorem sout1_B_0_eq (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : ¬cond1_1 i)
    (x0 : Vec F S128x6400 .f32) (x1 : Vec F S6400x2 .f32) (xs0 : Vec F S128x2 .f32) :
    sout1_B_0 c i arg1 harg1 arg2 harg2 arg3 harg3 arg4 harg4 arg5 harg5 hc0 hc1 x0 x1 xs0 = k1_pay2 x0 x1 xs0 := by
  unfold sout1_B_0
  rw [View.read_writes_eq_canon _ _ _ (scover1_B_0 c i arg1 harg1 arg2 harg2 arg3 harg3 arg4 harg4 arg5 harg5 hc0 hc1 x0 x1 xs0)]
  unfold kernelRun1_B
  dsimp only
  sl_unfold_words
  rw [View.canon_unit_zero hz2]
  simp only [View.readAt_eq_ld, harg1.read_unread, harg2.read_unread, harg5.read_unread]
  rw [View.ld_unit_zero (S := S128x6400) hz2, View.ld_unit_zero (S := S6400x2) hz2, View.ld_unit_zero (S := S128x2) hz2]

theorem sout1_C_0_eq (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) :
    sout1_C_0 c i arg1 harg1 arg2 harg2 arg3 harg3 arg4 harg4 arg5 harg5 hc0 hc1 x0 x1 x2 xs0 = k1_pay2 x0 x1 xs0 := by
  unfold sout1_C_0
  rw [View.read_writes_eq_canon _ _ _ (scover1_C_0 c i arg1 harg1 arg2 harg2 arg3 harg3 arg4 harg4 arg5 harg5 hc0 hc1 x0 x1 x2 xs0)]
  unfold kernelRun1_C
  dsimp only
  sl_unfold_words
  rw [View.canon_unit_zero hz2]
  simp only [View.readAt_eq_ld, harg1.read_unread, harg2.read_unread, harg5.read_unread]
  rw [View.ld_unit_zero (S := S128x6400) hz2, View.ld_unit_zero (S := S6400x2) hz2, View.ld_unit_zero (S := S128x2) hz2]

theorem out1_C_3_eq (c : Dev nD) (i : grid1.Coords) (arg1 : Memref sig .tc .vmem S128x6400 .f32) (harg1 : arg1.IsWhole) (arg2 : Memref sig .tc .vmem S6400x2 .f32) (harg2 : arg2.IsWhole) (arg3 : Memref sig .tc .vmem S2 .f32) (harg3 : arg3.IsWhole) (arg4 : Memref sig .tc .vmem S128x2 .f32) (harg4 : arg4.IsWhole) (arg5 : Memref sig .tc .vmem S128x2 .f32) (harg5 : arg5.IsWhole) (hc0 : ¬cond1_0 i) (hc1 : cond1_1 i)
    (x0 : Vec F S128x6400 .f32) (x1 : Vec F S6400x2 .f32) (x2 : Vec F S2 .f32) (xs0 : Vec F S128x2 .f32) :
    out1_C_3 c i arg1 harg1 arg2 harg2 arg3 harg3 arg4 harg4 arg5 harg5 hc0 hc1 x0 x1 x2 xs0 = k1_pay3 (k1_pay2 x0 x1 xs0) x2 := by
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  sl_unfold_words
  rw [View.canon_unit_zero hz2, View.readCov_unit_zero _ hz2]
  simp only [View.readAt_eq_ld, harg1.read_unread, harg2.read_unread, harg3.read_unread, harg5.read_unread]
  rw [View.ld_unit_zero (S := S128x6400) hz2, View.ld_unit_zero (S := S6400x2) hz2, View.ld_unit_zero (S := S128x2) hz2, View.ld_unit_zero (S := S2) hz1]

end Cert.KernelIdeal.Fr

end
-- ==== Proof.KI.Value1.lean ====
/-
  The second region's result as one function of the arrays it is entered with.

  Point `t` holds columns 6400 t … 6400 t + 6399 of the activations (one row per graph) and the same rows of the dense
  weights. The accumulator after point 0 is zero plus the block's product, after point t + 1 what it held plus that
  block's product; the output array is written once, at the last point, whole: the accumulator plus the bias row.
-/
import proofs.«152607_j82463372083215_1_alg».proof.Proof.KI.Pieces1
import proofs.«152607_j82463372083215_1_alg».proof.Proof.KI.Payloads
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section
variable (V : (c : Dev nD) → (b : Ref sig .tc) → Buf (Elt Ideal) ((c : Thread nD τ).loc b))

/-- The printed index maps over the grid: the activations' column block and the weights' row block are the point; the bias
    and the output stay. -/
theorem idx_facts1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

theorem blk1_0_at (c : Dev nD) (t : Fin cfg1.N) (p : Fin 128) (k : Fin 6400) :
    iblk1 V c 0 t (ix2 p k) = V c main_v92 (ix2 p (⟨6400 * t.val + k.val, by have := lt10 t.isLt; omega⟩ : Fin 64000)) := by
  obtain ⟨e0, e1, -, -, -, -, -⟩ := idx_facts1 t
  show V c main_v92 (((cfg1.win 0).blk t).view.emb (ix2 p k)) = _
  refine congrArg (V c main_v92) ?_
  funext a; apply Fin.ext
  match a with
  | ⟨0, _⟩ => show win1_0.index t (0 : Fin 2) * 128 + 1 * p.val = p.val; omega
  | ⟨1, _⟩ => show win1_0.index t (1 : Fin 2) * 6400 + 1 * k.val = 6400 * t.val + k.val; omega

theorem blk1_1_at (c : Dev nD) (t : Fin cfg1.N) (k : Fin 6400) (q : Fin 2) :
    iblk1 V c 1 t (ix2 k q) = V c main_arg5 (ix2 (⟨6400 * t.val + k.val, by have := lt10 t.isLt; omega⟩ : Fin 64000) q) := by
  obtain ⟨-, -, e0, e1, -, -, -⟩ := idx_facts1 t
  show V c main_arg5 (((cfg1.win 1).blk t).view.emb (ix2 k q)) = _
  refine congrArg (V c main_arg5) ?_
  funext a; apply Fin.ext
  match a with
  | ⟨0, _⟩ => show win1_1.index t (0 : Fin 2) * 6400 + 1 * k.val = 6400 * t.val + k.val; omega
  | ⟨1, _⟩ => show win1_1.index t (1 : Fin 2) * 2 + 1 * q.val = q.val; omega

theorem blk1_2_at (c : Dev nD) (t : Fin cfg1.N) (q : Fin 2) :
    iblk1 V c 2 t (ix1 q) = V c main_arg6 (ix1 q) := by
  obtain ⟨-, -, -, -, e0, -, -⟩ := idx_facts1 t
  show V c main_arg6 (((cfg1.win 2).blk t).view.emb (ix1 q)) = _
  refine congrArg (V c main_arg6) ?_
  funext a; apply Fin.ext
  match a with
  | ⟨0, _⟩ => show win1_2.index t (0 : Fin 1) * 2 + 1 * q.val = q.val; omega

/-! ## The accumulator, point by point -/

theorem acc_zero (c : Dev nD) (hn : 0 < cfg1.N) :
    (outsAt1 V c 0 hn).2 = k1_pay2 (iblk1 V c 0 ⟨0, hn⟩) (iblk1 V c 1 ⟨0, hn⟩) (k1_pay1 (F := Ideal)) := by
  rw [show outsAt1 V c 0 hn = _ from outsAt1_A V c ⟨0, hn⟩ (Nat.zero_mod _) (by show ¬ (0 : ℕ) % 10 = 9; omega)]
  dsimp only
  exact sout1_A_0_eq c _ _ _ _ _ _ _ _ _ _ _ _ _ _ _

theorem acc_succ (c : Dev nD) (n : ℕ) (hn : n + 1 < cfg1.N) :
    (outsAt1 V c (n + 1) hn).2 = k1_pay2 (iblk1 V c 0 ⟨n + 1, hn⟩) (iblk1 V c 1 ⟨n + 1, hn⟩) (outsAt1 V c n (Nat.lt_of_succ_lt hn)).2 := by
  have hN := lt10 hn
  have h0 : ¬ (n + 1) % 10 = 0 := by omega
  by_cases h1 : (n + 1) % 10 = 9
  · rw [show outsAt1 V c (n + 1) hn = _ from outsAt1_C V c ⟨n + 1, hn⟩ h0 h1]
    dsimp only
    exact sout1_C_0_eq c _ _ _ _ _ _ _ _ _ _ _ _ _ _ _ _ _
  · rw [show outsAt1 V c (n + 1) hn = _ from outsAt1_B V c ⟨n + 1, hn⟩ h0 h1]
    dsimp only
    exact sout1_B_0_eq c _ _ _ _ _ _ _ _ _ _ _ _ _ _ _ _

theorem out_last (c : Dev nD) (hn : 9 < cfg1.N) :
    (outsAt1 V c 9 hn).1 = k1_pay3 (k1_pay2 (iblk1 V c 0 ⟨9, hn⟩) (iblk1 V c 1 ⟨9, hn⟩) (outsAt1 V c 8 (Nat.lt_of_succ_lt hn)).2) (iblk1 V c 2 ⟨9, hn⟩) := by
  rw [show outsAt1 V c 9 hn = _ from outsAt1_C V c ⟨9, hn⟩ (by show ¬ (9 : ℕ) % 10 = 0; omega) (by show (9 : ℕ) % 10 = 9; rfl)]
  dsimp only
  exact out1_C_3_eq c _ _ _ _ _ _ _ _ _ _ _ _ _ _ _ _ _

/-- The activations, one row per graph, and the dense weights, as the region finds them. -/
def feat (c : Dev nD) : FVec Ideal S128x64000 .f32 := V c main_v92
def linw (c : Dev nD) : FVec Ideal S64000x2 .f32 := V c main_arg5

/-- One term of the dense layer's sum: feature `j` of graph `p` against weight (j, q). -/
def term (c : Dev nD) (p : Fin 128) (q : Fin 2) (j : Fin 64000) : EReal :=
  feat V c (ix2 p j) * linw V c (ix2 j q)

/-- The sum over block `t` of 6400 terms. -/
def blkSum (c : Dev nD) (p : Fin 128) (q : Fin 2) (t : ℕ) (ht : t < 10) : EReal :=
  ∑ k : Fin 6400, term V c p q (⟨6400 * t + k.val, by omega⟩ : Fin 64000)

/-- The accumulator's entry (p, q) after point `n`, as the blocks' sums added from the left onto zero. -/
def accN (c : Dev nD) (p : Fin 128) (q : Fin 2) : (n : ℕ) → n < 10 → EReal
  | 0, h => 0 + blkSum V c p q 0 h
  | n + 1, h => accN c p q n (Nat.lt_of_succ_lt h) + blkSum V c p q (n + 1) h

theorem acc_at (c : Dev nD) (p : Fin 128) (q : Fin 2) : ∀ (n : ℕ) (hn : n < cfg1.N),
    (outsAt1 V c n hn).2 (ix2 p q) = accN V c p q n (lt10 hn)
  | 0, hn => by
    rw [acc_zero V c hn]
    refine (Cert.KernelIdeal.PayAt.pay2_at _ _ _ p q).trans ?_
    rw [Cert.KernelIdeal.PayAt.pay1_at p q]
    show _ = 0 + blkSum V c p q 0 _
    refine congrArg (fun s => (0 : EReal) + s) ?_
    unfold blkSum term feat linw
    refine Finset.sum_congr rfl fun k _ => ?_
    rw [blk1_0_at V c ⟨0, hn⟩ p k, blk1_1_at V c ⟨0, hn⟩ k q]
  | n + 1, hn => by
    rw [acc_succ V c n hn]
    refine (Cert.KernelIdeal.PayAt.pay2_at _ _ _ p q).trans ?_
    rw [acc_at c p q n (Nat.lt_of_succ_lt hn)]
    show _ = accN V c p q n _ + blkSum V c p q (n + 1) _
    refine congrArg (fun s => accN V c p q n _ + s) ?_
    unfold blkSum term feat linw
    refine Finset.sum_congr rfl fun k _ => ?_
    rw [blk1_0_at V c ⟨n + 1, hn⟩ p k, blk1_1_at V c ⟨n + 1, hn⟩ k q]

/-- The output window's buffer at the last point, entry (p, q): the accumulated sum plus the bias. -/
theorem out_at (c : Dev nD) (hn : 9 < cfg1.N) (p : Fin 128) (q : Fin 2) :
    (outsAt1 V c 9 hn).1 (ix2 p q) = accN V c p q 9 (by omega) + V c main_arg6 (ix1 q) := by
  rw [out_last V c hn]
  refine (Cert.KernelIdeal.PayAt.pay3_at _ _ p q).trans ?_
  rw [← acc_succ V c 8 hn, acc_at V c p q 9 hn, blk1_2_at V c ⟨9, hn⟩ q]

/-! ## The output array after the region -/

theorem h9 : 9 < cfg1.N := by have : cfg1.N = 10 := N_1; omega

theorem flushed1_eq (c : Dev nD) (t : Fin cfg1.N) (hf : (cfg1.win 3).flush t = true) :
    (dat1 V c).flushed 3 t = ((cfg1.win 3).blk t).view.read (Elt Ideal) ((outsAt1 V c 9 h9).1) := by
  show (cfg1.win 3).cut (grid1.coords t) ((dat1 V c).after 3 t) = _
  rw [after1_3]
  have ht : t.val = 9 := by have h1 := (flush1_3 t).mp hf; have h2 := lt10 t.isLt; omega
  obtain ⟨-, -, -, -, -, e0, e1⟩ := idx_facts1 t
  have hX : (outsAt1 V c t.val t.isLt).1 = (outsAt1 V c 9 h9).1 := by
    obtain ⟨n, hn⟩ := t
    have hn9 : n = 9 := ht
    subst hn9
    rfl
  rw [hX]
  generalize (outsAt1 V c 9 h9).1 = X
  funext j
  show X j = X (((cfg1.win 3).blk t).view.emb j)
  refine congrArg X ?_
  funext a; apply Fin.ext
  match a with
  | ⟨0, _⟩ => show (j 0).val = win1_3.index t (0 : Fin 2) * 128 + 1 * (j 0).val; omega
  | ⟨1, _⟩ => show (j 1).val = win1_3.index t (1 : Fin 2) * 2 + 1 * (j 1).val; omega

theorem mem_blk1 (t : Fin cfg1.N) (i : S128x2.Idx) :
    i ∈ ((cfg1.win 3).blk t).view.set ↔ ∀ a : Fin 2, win1_3.index t a * S128x2.size a ≤ (i a).val ∧ (i a).val < win1_3.index t a * S128x2.size a + S128x2.size a := by
  show i ∈ ((View.whole main_v93).slice (win1_3.rect t)).set ↔ _
  rw [View.set_slice_whole, Rect.mem_set_unit]
  exact Iff.rfl

theorem cover1 (i : S128x2.Idx) : ∃ t : Fin cfg1.N, (cfg1.win 3).flush t = true ∧ i ∈ ((cfg1.win 3).blk t).view.set := by
  have hi0 : (i 0).val < 128 := (i 0).isLt
  have hi1 : (i 1).val < 2 := (i 1).isLt
  refine ⟨⟨9, h9⟩, (flush1_3 ⟨9, h9⟩).mpr (by show (9 : ℕ) % 10 = 9; rfl), ?_⟩
  rw [mem_blk1]
  obtain ⟨-, -, -, -, -, e0, e1⟩ := idx_facts1 ⟨9, h9⟩
  intro a
  match a with
  | ⟨0, _⟩ => show win1_3.index ⟨9, h9⟩ (0 : Fin 2) * 128 ≤ (i 0).val ∧ (i 0).val < win1_3.index ⟨9, h9⟩ (0 : Fin 2) * 128 + 128; omega
  | ⟨1, _⟩ => show win1_3.index ⟨9, h9⟩ (1 : Fin 2) * 2 ≤ (i 1).val ∧ (i 1).val < win1_3.index ⟨9, h9⟩ (1 : Fin 2) * 2 + 2; omega

/-- The output array after the region is what the last point stored. -/
theorem final1 (c : Dev nD) : (dat1 V c).arrAt 3 cfg1.N = (outsAt1 V c 9 h9).1 :=
  (dat1 V c).arrAt_eq_of_cover 3 _ (fun t hf => flushed1_eq V c t hf) cover1

end

end Cert.KernelIdeal.Fr

end
-- ==== Proof.Spec.lean ====
/-
  The function both programs compute, over the extended reals, index by index.

  A graph signal is propagated four times along the edges (the five Chebyshev terms T0 … T4, one scalar per node; how
  they are made from the inputs is the same text in both programs and is never opened here). Node `n` and channel `c`
  then get the hidden activation
      h(n, c) = max (((((T0 n · W 0 c + T1 n · W 1 c) + T2 n · W 2 c) + T3 n · W 3 c) + T4 n · W 4 c) + b c) 0,
  the sum associated from the left as both programs add it. Graph `p` owns the 2000 nodes 2000 p … 2000 p + 1999, and
  its 64000 features are their activations in row-major order: feature `j` is channel `j % 32` of node
  `2000 p + j / 32`. The result is the dense layer
      out(p, q) = (∑ j < 64000, h(node p j, chan j) · lw(j, q)) + lb q.
-/
import Idealize.ShloMosaic.PureOps.Ideal
import Idealize.ShloMosaic.Lib.ValueIdx

noncomputable section

open scoped BigOperators

namespace Cert.Proof.Spec

open Idealize.ShloMosaic Idealize.ShloMosaic.ValueIdx

abbrev SNode : Shape := ⟨2, ![256000, 1]⟩
abbrev SCheb : Shape := ⟨3, ![5, 1, 32]⟩
abbrev SBias : Shape := ⟨1, ![32]⟩
abbrev SLinW : Shape := ⟨2, ![64000, 2]⟩
abbrev SLinB : Shape := ⟨1, ![2]⟩
abbrev SOut : Shape := ⟨2, ![128, 2]⟩

/-- The hidden activation of node `n`, channel `c`: the five Chebyshev terms against their weights, added from the
    left, plus the bias, clamped below at zero. -/
def hidden (T0 T1 T2 T3 T4 : FVec Ideal SNode .f32) (W : FVec Ideal SCheb .f32) (b : FVec Ideal SBias .f32)
    (n : Fin 256000) (c : Fin 32) : EReal :=
  max (((((T0 (ix2 n 0) * W (ix3 0 0 c) + T1 (ix2 n 0) * W (ix3 1 0 c)) + T2 (ix2 n 0) * W (ix3 2 0 c))
    + T3 (ix2 n 0) * W (ix3 3 0 c)) + T4 (ix2 n 0) * W (ix3 4 0 c)) + b (ix1 c)) 0

/-- The node behind feature `j` of graph `p`. -/
def node (p : Fin 128) (j : Fin 64000) : Fin 256000 := ⟨p.val * 2000 + j.val / 32, by omega⟩
/-- The channel behind feature `j`. -/
def chan (j : Fin 64000) : Fin 32 := ⟨j.val % 32, by omega⟩

/-- The dense layer at graph `p`, class `q`. -/
def outAt (T0 T1 T2 T3 T4 : FVec Ideal SNode .f32) (W : FVec Ideal SCheb .f32) (b : FVec Ideal SBias .f32)
    (lw : FVec Ideal SLinW .f32) (lb : FVec Ideal SLinB .f32) (p : Fin 128) (q : Fin 2) : EReal :=
  (∑ j : Fin 64000, hidden T0 T1 T2 T3 T4 W b (node p j) (chan j) * lw (ix2 j q)) + lb (ix1 q)

/-- The whole result array. -/
def out (T0 T1 T2 T3 T4 : FVec Ideal SNode .f32) (W : FVec Ideal SCheb .f32) (b : FVec Ideal SBias .f32)
    (lw : FVec Ideal SLinW .f32) (lb : FVec Ideal SLinB .f32) : FVec Ideal SOut .f32 :=
  fun i => outAt T0 T1 T2 T3 T4 W b lw lb (i 0) (i 1)

theorem out_apply (T0 T1 T2 T3 T4 : FVec Ideal SNode .f32) (W : FVec Ideal SCheb .f32) (b : FVec Ideal SBias .f32)
    (lw : FVec Ideal SLinW .f32) (lb : FVec Ideal SLinB .f32) (p : Fin 128) (q : Fin 2) :
    out T0 T1 T2 T3 T4 W b lw lb (ix2 p q) = outAt T0 T1 T2 T3 T4 W b lw lb p q := rfl

end Cert.Proof.Spec

end
-- ==== Proof.RefSpec.lean ====
/-
  The reference program computes the specification.

  The reference forms the five Chebyshev terms on the host (the first is the node signal itself; the other four come out
  of gather / scatter propagation along the edges and are carried here as four opaque functions `T1 … T4` of the node
  signal and the edge list), multiplies each by its row of the weight array (five contractions over an axis of extent
  one, so each sum has exactly one term), adds the five products from the left, adds the bias row, clamps below at
  zero, regroups the 256000 × 32 activations as 128 rows of 64000 features in row-major order, and applies the dense
  layer (a contraction over the 64000 features, plus the class bias). Read index by index, stage by stage, that is
  `Spec.out`: no arithmetic law is used beyond "a sum over one index is its term".
-/
import proofs.«152607_j82463372083215_1_alg».proof.Proof.Spec
import proofs.«152607_j82463372083215_1_alg».proof.Proof.RefRead
import proofs.«152607_j82463372083215_1_alg».proof.Defs
import proofs.«152607_j82463372083215_1_alg».proof.Proof.Gen.Pre_finite_inputs

noncomputable section

open scoped BigOperators

namespace Cert.Proof.RefSide

open Cert.ReferenceIdeal Cert.ReferenceIdeal.Read Idealize.ShloMosaic Idealize.ShloMosaic.ValueIdx Idealize.ShloMosaic.TcCoe
  Idealize.SL.Sem Cert.Proof.Spec

/-- The node signal: one scalar per node. -/
abbrev XArr : Type := (⟨S256000x1, .f32⟩ : BufTy).Contents (Elt Ideal)
/-- The edge list: a row of sources and a row of targets. -/
abbrev EArr : Type := (⟨S2x4096000, .i32⟩ : BufTy).Contents (Elt Ideal)
/-- The Chebyshev weights, one row of 32 channels per order. -/
abbrev WArr : Type := (⟨S5x1x32, .f32⟩ : BufTy).Contents (Elt Ideal)
/-- The channel bias. -/
abbrev BArr : Type := (⟨S32, .f32⟩ : BufTy).Contents (Elt Ideal)
/-- The dense layer's weights. -/
abbrev LWArr : Type := (⟨S64000x2, .f32⟩ : BufTy).Contents (Elt Ideal)
/-- The dense layer's bias. -/
abbrev LBArr : Type := (⟨S2, .f32⟩ : BufTy).Contents (Elt Ideal)

/-! ## The four propagated Chebyshev terms, as the reference makes them -/

/-- The first propagated term: the scaled Laplacian applied to the node signal. -/
def T1 (x : XArr) (e : EArr) : FVec Ideal SNode .f32 := val_main_v46 (F := Ideal) x e
/-- The second: twice the propagated first term, minus the node signal. -/
def T2 (x : XArr) (e : EArr) : FVec Ideal SNode .f32 := val_main_v65 (F := Ideal) x e
/-- The third: twice the propagated second term, minus the first. -/
def T3 (x : XArr) (e : EArr) : FVec Ideal SNode .f32 := val_main_v84 (F := Ideal) x e
/-- The fourth: twice the propagated third term, minus the second. -/
def T4 (x : XArr) (e : EArr) : FVec Ideal SNode .f32 := val_main_v103 (F := Ideal) x e

theorem T1_def (x : XArr) (e : EArr) : T1 x e = val_main_v46 (F := Ideal) x e := rfl
theorem T2_def (x : XArr) (e : EArr) : T2 x e = val_main_v65 (F := Ideal) x e := rfl
theorem T3_def (x : XArr) (e : EArr) : T3 x e = val_main_v84 (F := Ideal) x e := rfl
theorem T4_def (x : XArr) (e : EArr) : T4 x e = val_main_v103 (F := Ideal) x e := rfl

/-! ## Index equations: the stage maps composed, in coordinates -/

/-- Row 0 of the weight array, reached through the slice at row 0, the reshape dropping the unit axis, and the
    contraction's right index: channel `ch` of that row. -/
theorem widx0 (n : Fin 256000) (ch : Fin 32) (k : Fin 1) :
    idx_main_v32 (idx_main_v33 (ridx_main_v34 (ix2 n ch) k)) = ix3 (0 : Fin 5) (0 : Fin 1) ch := by
  funext a; refine Fin.ext ?_
  match a with
  | ⟨0, _⟩ => rfl
  | ⟨1, _⟩ => rfl
  | ⟨2, _⟩ => show (k.val * 32 + ch.val) % 32 = ch.val; omega

/-- A contraction over an axis of extent one reads its left operand in column 0 of the node's row. -/
theorem lidx0 (n : Fin 256000) (ch : Fin 32) (k : Fin 1) :
    lidx_main_v34 (ix2 n ch) k = ix2 n (0 : Fin 1) := by
  funext a; refine Fin.ext ?_
  match a with
  | ⟨0, _⟩ => rfl
  | ⟨1, _⟩ => show k.val = 0; omega

/-- The product of order 0: the node signal against row 0 of the weights (a sum over one index is its term). -/
theorem term0 (x : XArr) (W : WArr) (n : Fin 256000) (ch : Fin 32) :
    val_main_v34 (F := Ideal) x W (ix2 n ch) = x (ix2 n 0) * W (ix3 0 0 ch) := by
  rw [val_main_v34_apply, Fin.sum_univ_one, val_main_v33_apply, val_main_v32_apply, lidx0, widx0]

/-- Row 1 of the weight array, reached through the slice at row 1, the reshape dropping the unit axis, and the
    contraction's right index: channel `ch` of that row. -/
theorem widx1 (n : Fin 256000) (ch : Fin 32) (k : Fin 1) :
    idx_main_v47 (idx_main_v48 (ridx_main_v49 (ix2 n ch) k)) = ix3 (1 : Fin 5) (0 : Fin 1) ch := by
  funext a; refine Fin.ext ?_
  match a with
  | ⟨0, _⟩ => rfl
  | ⟨1, _⟩ => rfl
  | ⟨2, _⟩ => show (k.val * 32 + ch.val) % 32 = ch.val; omega

/-- The contraction reads its left operand in column 0 of the node's row. -/
theorem lidx1 (n : Fin 256000) (ch : Fin 32) (k : Fin 1) :
    lidx_main_v49 (ix2 n ch) k = ix2 n (0 : Fin 1) := by
  funext a; refine Fin.ext ?_
  match a with
  | ⟨0, _⟩ => rfl
  | ⟨1, _⟩ => show k.val = 0; omega

/-- The first product: the first propagated term against row 1 of the weights (a sum over one index is its term). -/
theorem term1 (x : XArr) (e : EArr) (W : WArr) (n : Fin 256000) (ch : Fin 32) :
    val_main_v49 (F := Ideal) x e W (ix2 n ch) = T1 x e (ix2 n 0) * W (ix3 1 0 ch) := by
  rw [val_main_v49_apply, Fin.sum_univ_one, val_main_v48_apply, val_main_v47_apply, lidx1, widx1, T1_def]

/-- Row 2 of the weight array, reached through the slice at row 2, the reshape dropping the unit axis, and the
    contraction's right index: channel `ch` of that row. -/
theorem widx2 (n : Fin 256000) (ch : Fin 32) (k : Fin 1) :
    idx_main_v66 (idx_main_v67 (ridx_main_v68 (ix2 n ch) k)) = ix3 (2 : Fin 5) (0 : Fin 1) ch := by
  funext a; refine Fin.ext ?_
  match a with
  | ⟨0, _⟩ => rfl
  | ⟨1, _⟩ => rfl
  | ⟨2, _⟩ => show (k.val * 32 + ch.val) % 32 = ch.val; omega

/-- The contraction reads its left operand in column 0 of the node's row. -/
theorem lidx2 (n : Fin 256000) (ch : Fin 32) (k : Fin 1) :
    lidx_main_v68 (ix2 n ch) k = ix2 n (0 : Fin 1) := by
  funext a; refine Fin.ext ?_
  match a with
  | ⟨0, _⟩ => rfl
  | ⟨1, _⟩ => show k.val = 0; omega

/-- The second product: the second propagated term against row 2 of the weights (a sum over one index is its term). -/
theorem term2 (x : XArr) (e : EArr) (W : WArr) (n : Fin 256000) (ch : Fin 32) :
    val_main_v68 (F := Ideal) x e W (ix2 n ch) = T2 x e (ix2 n 0) * W (ix3 2 0 ch) := by
  rw [val_main_v68_apply, Fin.sum_univ_one, val_main_v67_apply, val_main_v66_apply, lidx2, widx2, T2_def]

/-- Row 3 of the weight array, reached through the slice at row 3, the reshape dropping the unit axis, and the
    contraction's right index: channel `ch` of that row. -/
theorem widx3 (n : Fin 256000) (ch : Fin 32) (k : Fin 1) :
    idx_main_v85 (idx_main_v86 (ridx_main_v87 (ix2 n ch) k)) = ix3 (3 : Fin 5) (0 : Fin 1) ch := by
  funext a; refine Fin.ext ?_
  match a with
  | ⟨0, _⟩ => rfl
  | ⟨1, _⟩ => rfl
  | ⟨2, _⟩ => show (k.val * 32 + ch.val) % 32 = ch.val; omega

/-- The contraction reads its left operand in column 0 of the node's row. -/
theorem lidx3 (n : Fin 256000) (ch : Fin 32) (k : Fin 1) :
    lidx_main_v87 (ix2 n ch) k = ix2 n (0 : Fin 1) := by
  funext a; refine Fin.ext ?_
  match a with
  | ⟨0, _⟩ => rfl
  | ⟨1, _⟩ => show k.val = 0; omega

/-- The third product: the third propagated term against row 3 of the weights (a sum over one index is its term). -/
theorem term3 (x : XArr) (e : EArr) (W : WArr) (n : Fin 256000) (ch : Fin 32) :
    val_main_v87 (F := Ideal) x e W (ix2 n ch) = T3 x e (ix2 n 0) * W (ix3 3 0 ch) := by
  rw [val_main_v87_apply, Fin.sum_univ_one, val_main_v86_apply, val_main_v85_apply, lidx3, widx3, T3_def]

/-- Row 4 of the weight array, reached through the slice at row 4, the reshape dropping the unit axis, and the
    contraction's right index: channel `ch` of that row. -/
theorem widx4 (n : Fin 256000) (ch : Fin 32) (k : Fin 1) :
    idx_main_v104 (idx_main_v105 (ridx_main_v106 (ix2 n ch) k)) = ix3 (4 : Fin 5) (0 : Fin 1) ch := by
  funext a; refine Fin.ext ?_
  match a with
  | ⟨0, _⟩ => rfl
  | ⟨1, _⟩ => rfl
  | ⟨2, _⟩ => show (k.val * 32 + ch.val) % 32 = ch.val; omega

/-- The contraction reads its left operand in column 0 of the node's row. -/
theorem lidx4 (n : Fin 256000) (ch : Fin 32) (k : Fin 1) :
    lidx_main_v106 (ix2 n ch) k = ix2 n (0 : Fin 1) := by
  funext a; refine Fin.ext ?_
  match a with
  | ⟨0, _⟩ => rfl
  | ⟨1, _⟩ => show k.val = 0; omega

/-- The fourth product: the fourth propagated term against row 4 of the weights (a sum over one index is its term). -/
theorem term4 (x : XArr) (e : EArr) (W : WArr) (n : Fin 256000) (ch : Fin 32) :
    val_main_v106 (F := Ideal) x e W (ix2 n ch) = T4 x e (ix2 n 0) * W (ix3 4 0 ch) := by
  rw [val_main_v106_apply, Fin.sum_univ_one, val_main_v105_apply, val_main_v104_apply, lidx4, widx4, T4_def]

/-- The bias row, broadcast twice (to one row, then to every node), read at node `n`, channel `ch`: entry `ch`. -/
theorem bidx (n : Fin 256000) (ch : Fin 32) : idx_main_v108 (idx_main_v109 (ix2 n ch)) = ix1 ch := by
  funext a; refine Fin.ext ?_
  match a with
  | ⟨0, _⟩ => rfl

/-! ## The activation, node by node -/

/-- The clamped sum at node `n`, channel `ch` is the specification's hidden activation: the five products added from
    the left, the bias, the maximum with the zero word (which is the real 0). -/
theorem act_at (x : XArr) (e : EArr) (W : WArr) (b : BArr) (n : Fin 256000) (ch : Fin 32) :
    val_main_v111 (F := Ideal) x e W b (ix2 n ch) = hidden x (T1 x e) (T2 x e) (T3 x e) (T4 x e) W b n ch := by
  rw [val_main_v111_apply, val_main_v110_apply, val_main_v107_apply, val_main_v88_apply, val_main_v69_apply,
    val_main_v50_apply, term0, term1, term2, term3, term4, val_main_v109_apply, val_main_v108_apply, bidx,
    val_main_call2_v0_apply, val_main_call2_cst_apply]
  simp only [Spec.hidden, Ideal.addf_def, Ideal.maximumf_def, Ideal.ofBits_def, Ideal.ofBits_zero_f32]

/-! ## The regrouping into 128 rows of 64000 features -/

/-- Row-major regrouping: feature `j` of graph `p` is channel `j % 32` of node `2000 p + j / 32`. -/
theorem idx_feat (p : Fin 128) (j : Fin 64000) : idx_main_v112 (ix2 p j) = ix2 (node p j) (chan j) := by
  funext a; refine Fin.ext ?_
  match a with
  | ⟨0, _⟩ => show (p.val * 64000 + j.val) / 32 = p.val * 2000 + j.val / 32; omega
  | ⟨1, _⟩ => show (p.val * 64000 + j.val) % 32 = j.val % 32; omega

/-- Feature `j` of graph `p` is the hidden activation of its node and channel. -/
theorem feat_at (x : XArr) (e : EArr) (W : WArr) (b : BArr) (p : Fin 128) (j : Fin 64000) :
    val_main_v112 (F := Ideal) x e W b (ix2 p j) = hidden x (T1 x e) (T2 x e) (T3 x e) (T4 x e) W b (node p j) (chan j) := by
  rw [val_main_v112_apply, idx_feat, act_at]

/-! ## The dense layer -/

/-- The dense contraction reads feature `k` of the graph's row … -/
theorem lidx_dense (p : Fin 128) (q : Fin 2) (k : Fin 64000) : lidx_main_v113 (ix2 p q) k = ix2 p k := by
  funext a; refine Fin.ext ?_
  match a with
  | ⟨0, _⟩ => rfl
  | ⟨1, _⟩ => rfl

/-- … against row `k`, class `q` of the dense weights. -/
theorem ridx_dense (p : Fin 128) (q : Fin 2) (k : Fin 64000) : ridx_main_v113 (ix2 p q) k = ix2 k q := by
  funext a; refine Fin.ext ?_
  match a with
  | ⟨0, _⟩ => rfl
  | ⟨1, _⟩ => rfl

/-- The class bias, broadcast twice, read at graph `p`, class `q`: entry `q`. -/
theorem lbidx (p : Fin 128) (q : Fin 2) : idx_main_v114 (idx_main_v115 (ix2 p q)) = ix1 q := by
  funext a; refine Fin.ext ?_
  match a with
  | ⟨0, _⟩ => rfl

/-! ## The reference's result is the specification -/

/-- The last stage of the reference, as a function of the six arrays it depends on, is `Spec.out` of them and of the
    four propagated terms. -/
theorem val_out (x : XArr) (e : EArr) (W : WArr) (b : BArr) (lw : LWArr) (lb : LBArr) :
    val_main_v116 (F := Ideal) x e W b lw lb = Spec.out x (T1 x e) (T2 x e) (T3 x e) (T4 x e) W b lw lb := by
  funext i
  obtain ⟨p, q, rfl⟩ : ∃ (p : Fin 128) (q : Fin 2), i = ix2 p q := ⟨i 0, i 1, eq_ix2 i⟩
  rw [out_apply, val_main_v116_apply, val_main_v113_apply, val_main_v115_apply, val_main_v114_apply, lbidx, Ideal.addf_def]
  unfold outAt
  refine congrArg (fun s : EReal => s + lb (ix1 q)) (Finset.sum_congr rfl fun k _ => ?_)
  rw [lidx_dense, ridx_dense, feat_at]

/-- The reference run's result term, on every device, is the specification at the launch contents of the arguments
    (the batch vector, argument 2, is not read). -/
theorem ref_out (m : (ℓ : Loc nD τ sig) → Buf (Elt Ideal) ℓ) (c : Dev nD) :
    Cert.ReferenceIdeal.Value.res_out0 (F := Ideal) m c =
      Spec.out (m ((c.tc : Thread nD τ).loc main_arg0))
        (T1 (m ((c.tc : Thread nD τ).loc main_arg0)) (m ((c.tc : Thread nD τ).loc main_arg1)))
        (T2 (m ((c.tc : Thread nD τ).loc main_arg0)) (m ((c.tc : Thread nD τ).loc main_arg1)))
        (T3 (m ((c.tc : Thread nD τ).loc main_arg0)) (m ((c.tc : Thread nD τ).loc main_arg1)))
        (T4 (m ((c.tc : Thread nD τ).loc main_arg0)) (m ((c.tc : Thread nD τ).loc main_arg1)))
        (m ((c.tc : Thread nD τ).loc main_arg3)) (m ((c.tc : Thread nD τ).loc main_arg4))
        (m ((c.tc : Thread nD τ).loc main_arg5)) (m ((c.tc : Thread nD τ).loc main_arg6)) :=
  (val_main_v116_eq (F := Ideal) m c).trans (val_out _ _ _ _ _ _)

/-! ## The reference runs and leaves its arguments as they were -/

/-- Every weakly fair execution of the reference terminates with the seven argument arrays unchanged: the run's
    statement without its first conjunct. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.LibStack5.lean ====
/-
  Five columns side by side. A concatenation along axis 1 of five arrays of shape [n, 1], read at row `p` and
  column `k`, is the `k`-th array at row `p` (its one column): the extents before piece `k` add up to `k`, so
  position `k` along the axis falls in piece `k` at offset 0. General in the number of rows and in the element type.
-/
import Idealize.ShloMosaic.Lib.Pipeline.Value
import Idealize.ShloMosaic.Lib.ValueIdx
import Idealize.ShloMosaic.Lib.StableHlo.Run

namespace Cert.Proof.Stack5

open Idealize.ShloMosaic Idealize.ShloMosaic.ValueIdx

variable {α : Type} {n : Nat}

/-- The shape of one column. -/
abbrev SCol (n : Nat) : Shape := ⟨2, ![n, 1]⟩
/-- The shape of five columns. -/
abbrev SFive (n : Nat) : Shape := ⟨2, ![n, 5]⟩

/-- Piece `k` of a five-column stack at row `p`, column `k`, given which piece stands in place `k`. -/
theorem col_apply (xs : List ((s : Shape) × (s.Idx → α))) (h : Shape.Concatenates (xs.map (·.1)) (SFive n) 1)
    (k : Nat) (hk5 : k < 5) (hk : k < xs.length) (x : (SCol n).Idx → α) (hxk : xs[k] = ⟨SCol n, x⟩)
    (hpre : (((xs.take k).map (·.1)).map fun s => if h : s.rank = (SFive n).rank then s.size ((1 : Fin (SFive n).rank).cast h.symm) else 0).sum = k)
    (p : Fin n) :
    concatenate (SFive n) 1 xs h (ix2 p (⟨k, hk5⟩ : Fin 5)) = x (ix2 p (0 : Fin 1)) := by
  refine concatenate_apply_piece (1 : Fin (SFive n).rank) xs h (ix2 p (⟨k, hk5⟩ : Fin 5)) k hk (SCol n) x hxk rfl k hpre
    (ix2 p (0 : Fin 1)) ?_ ?_
  · intro b hb
    match b with
    | ⟨0, _⟩ => rfl
    | ⟨1, _⟩ => exact absurd rfl hb
  · show k + 0 = k
    omega

variable (x0 x1 x2 x3 x4 : (SCol n).Idx → α)
  (h : Shape.Concatenates ([(⟨SCol n, x0⟩ : (s : Shape) × (s.Idx → α)), ⟨SCol n, x1⟩, ⟨SCol n, x2⟩, ⟨SCol n, x3⟩, ⟨SCol n, x4⟩].map (·.1)) (SFive n) 1)
  (p : Fin n)

/-- Column 0 of the stack is the first array. -/
theorem col0 : concatenate (SFive n) 1 [⟨SCol n, x0⟩, ⟨SCol n, x1⟩, ⟨SCol n, x2⟩, ⟨SCol n, x3⟩, ⟨SCol n, x4⟩] h (ix2 p (0 : Fin 5)) = x0 (ix2 p 0) :=
  col_apply _ h 0 (by decide) (by simp) x0 rfl rfl p
/-- Column 1 is the second. -/
theorem col1 : concatenate (SFive n) 1 [⟨SCol n, x0⟩, ⟨SCol n, x1⟩, ⟨SCol n, x2⟩, ⟨SCol n, x3⟩, ⟨SCol n, x4⟩] h (ix2 p (1 : Fin 5)) = x1 (ix2 p 0) :=
  col_apply _ h 1 (by decide) (by simp) x1 rfl rfl p
/-- Column 2 is the third. -/
theorem col2 : concatenate (SFive n) 1 [⟨SCol n, x0⟩, ⟨SCol n, x1⟩, ⟨SCol n, x2⟩, ⟨SCol n, x3⟩, ⟨SCol n, x4⟩] h (ix2 p (2 : Fin 5)) = x2 (ix2 p 0) :=
  col_apply _ h 2 (by decide) (by simp) x2 rfl rfl p
/-- Column 3 is the fourth. -/
theorem col3 : concatenate (SFive n) 1 [⟨SCol n, x0⟩, ⟨SCol n, x1⟩, ⟨SCol n, x2⟩, ⟨SCol n, x3⟩, ⟨SCol n, x4⟩] h (ix2 p (3 : Fin 5)) = x3 (ix2 p 0) :=
  col_apply _ h 3 (by decide) (by simp) x3 rfl rfl p
/-- Column 4 is the fifth. -/
theorem col4 : concatenate (SFive n) 1 [⟨SCol n, x0⟩, ⟨SCol n, x1⟩, ⟨SCol n, x2⟩, ⟨SCol n, x3⟩, ⟨SCol n, x4⟩] h (ix2 p (4 : Fin 5)) = x4 (ix2 p 0) :=
  col_apply _ h 4 (by decide) (by simp) x4 rfl rfl p

open Idealize.ShloMosaic.StableHlo

variable {τ : Topo} {sig : RefSig} {Val : EltTy → Type} {x a b c d y : Ref sig .tc}

/-- A host operation over a literal family of FIVE references leaves its result at the operation's function of the
    five operands' contents, each read at its own reference (the five-operand form of the library's
    four-operand statement). -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same with the result reference left out of the discrimination key, for use by `simp`. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Cert.Proof.Stack5
-- ==== Proof.KI.HostVals.lean ====
/-
  What the host operations before and between the two kernel regions leave in the buffers the regions read.

  Before the first region the program makes the four propagated Chebyshev terms by the same operations, in the same
  order, on the same two arguments as the reference does (so each is the reference's term, for any float instance: the
  two terms are one expression), stacks them with the node signal as the five columns of one array, and drops the unit
  axis of the weight array. Between the regions it regroups the activations as one row of 64000 features per graph, in
  row-major order.
-/
import proofs.«152607_j82463372083215_1_alg».proof.Proof.KI.Folds
import proofs.«152607_j82463372083215_1_alg».proof.Proof.RefSpec
import proofs.«152607_j82463372083215_1_alg».proof.Proof.LibStack5

set_option maxRecDepth 16384

noncomputable section

namespace Cert.KernelIdeal.HostSide

open Cert.KernelIdeal Cert.KernelIdeal.Gen Cert.KernelIdeal.Fr
open Idealize.ShloMosaic Idealize.ShloMosaic.TcCoe Idealize.ShloMosaic.ValueIdx
open Idealize.SL.Sem

/-! ## For any float instance: the buffers as expressions in the launch contents -/

section AnyInstance

variable {F : FTy → Type} [FloatOps F] (m : (ℓ : Loc nD τ sig) → Buf (Elt F) ℓ) (ρ : Dev nD → PrngReg)

set_option maxHeartbeats 8000000 in
/-- The node signal is never written. -/
theorem arg0_any (c : Dev nD) :
    W5 (F := F) m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl

set_option maxHeartbeats 8000000 in
/-- The weight array is never written. -/
theorem arg3_any (c : Dev nD) :
    W5 (F := F) m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl

set_option maxHeartbeats 8000000 in
/-- The first propagated term is the reference's: the same scatter of the same edge products. -/
theorem cheb1_any (c : Dev nD) :
    W5 (F := F) m ρ c (Proc.devRef .tc main_v43) =
      Cert.ReferenceIdeal.Read.val_main_v46 (F := F) (m ((c : Thread nD τ).loc main_arg0)) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v43) = _
  after_results_simp
  rfl

set_option maxHeartbeats 8000000 in
/-- The second propagated term is the reference's. -/
theorem cheb2_any (c : Dev nD) :
    W5 (F := F) m ρ c (Proc.devRef .tc main_v58) =
      Cert.ReferenceIdeal.Read.val_main_v65 (F := F) (m ((c : Thread nD τ).loc main_arg0)) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v58) = _
  after_results_simp
  rfl

set_option maxHeartbeats 8000000 in
/-- The third propagated term is the reference's. -/
theorem cheb3_any (c : Dev nD) :
    W5 (F := F) m ρ c (Proc.devRef .tc main_v73) =
      Cert.ReferenceIdeal.Read.val_main_v84 (F := F) (m ((c : Thread nD τ).loc main_arg0)) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v73) = _
  after_results_simp
  rfl

set_option maxHeartbeats 16000000 in
/-- The fourth propagated term is the reference's. -/
theorem cheb4_any (c : Dev nD) :
    W5 (F := F) m ρ c (Proc.devRef .tc main_v88) =
      Cert.ReferenceIdeal.Read.val_main_v103 (F := F) (m ((c : Thread nD τ).loc main_arg0)) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v88) = _
  after_results_simp
  rfl

set_option maxHeartbeats 32000000 in
/-- The stacked array is the concatenation, along the column axis, of the node signal and the four propagated terms
    as the buffers hold them. -/
theorem stack_any (c : Dev nD) :
    W5 (F := F) m ρ c (Proc.devRef .tc main_v89) =
      concatenate S256000x5 1
        [⟨S256000x1, W5 (F := F) m ρ c (Proc.devRef .tc main_arg0)⟩, ⟨S256000x1, W5 (F := F) m ρ c (Proc.devRef .tc main_v43)⟩,
          ⟨S256000x1, W5 (F := F) m ρ c (Proc.devRef .tc main_v58)⟩, ⟨S256000x1, W5 (F := F) m ρ c (Proc.devRef .tc main_v73)⟩,
          ⟨S256000x1, W5 (F := F) m ρ c (Proc.devRef .tc main_v88)⟩]
        concatenates_S256000x1_S256000x1_S256000x1_S256000x1_S256000x1_S256000x5_d1 := by
  show StableHlo.after hostOps0_4 (StableHlo.after hostOps0_3 (StableHlo.after hostOps0_2 (StableHlo.after hostOps0_1 (StableHlo.after hostOps0 (W0 m ρ c))))) (Proc.devRef .tc main_v89) =
    concatenate S256000x5 1
      [⟨S256000x1, StableHlo.after hostOps0_4 (StableHlo.after hostOps0_3 (StableHlo.after hostOps0_2 (StableHlo.after hostOps0_1 (StableHlo.after hostOps0 (W0 m ρ c))))) (Proc.devRef .tc main_arg0)⟩,
        ⟨S256000x1, StableHlo.after hostOps0_4 (StableHlo.after hostOps0_3 (StableHlo.after hostOps0_2 (StableHlo.after hostOps0_1 (StableHlo.after hostOps0 (W0 m ρ c))))) (Proc.devRef .tc main_v43)⟩,
        ⟨S256000x1, StableHlo.after hostOps0_4 (StableHlo.after hostOps0_3 (StableHlo.after hostOps0_2 (StableHlo.after hostOps0_1 (StableHlo.after hostOps0 (W0 m ρ c))))) (Proc.devRef .tc main_v58)⟩,
        ⟨S256000x1, StableHlo.after hostOps0_4 (StableHlo.after hostOps0_3 (StableHlo.after hostOps0_2 (StableHlo.after hostOps0_1 (StableHlo.after hostOps0 (W0 m ρ c))))) (Proc.devRef .tc main_v73)⟩,
        ⟨S256000x1, StableHlo.after hostOps0_4 (StableHlo.after hostOps0_3 (StableHlo.after hostOps0_2 (StableHlo.after hostOps0_1 (StableHlo.after hostOps0 (W0 m ρ c))))) (Proc.devRef .tc main_v88)⟩]
      concatenates_S256000x1_S256000x1_S256000x1_S256000x1_S256000x1_S256000x5_d1
  simp (disch := decide) only [StableHlo.after_cons, StableHlo.after_nil,
    StableHlo.nullary_result', StableHlo.unary_result', StableHlo.binary_result', StableHlo.ternary_result',
    StableHlo.reshape_result', Cert.Proof.Stack5.nary5_result',
    StableHlo.nullary_result_ne', StableHlo.unary_result_ne', StableHlo.binary_result_ne', StableHlo.ternary_result_ne',
    StableHlo.reshape_result_ne', StableHlo.nary_result_ne']
  rfl

set_option maxHeartbeats 8000000 in
/-- The weight array with its unit axis dropped. -/
theorem w2d_any (c : Dev nD) :
    W5 (F := F) m ρ c (Proc.devRef .tc main_v90) =
      shapeCast S5x32 (m ((c : Thread nD τ).loc main_arg3)) shapeCasts_S5x1x32_S5x32 := by
  show StableHlo.after hostOps0_4 (StableHlo.after hostOps0_3 (StableHlo.after hostOps0_2 (StableHlo.after hostOps0_1 (StableHlo.after hostOps0 (W0 m ρ c))))) (Proc.devRef .tc main_v90) = _
  after_results_simp
  rfl

/-- The activations regrouped: the one host operation between the regions is a reshape of the first region's result. -/
theorem h2d_any (c : Dev nD) :
    W7 (F := F) m ρ c (Proc.devRef .tc main_v92) =
      shapeCast S128x64000 (W6 (F := F) m ρ c (Proc.devRef .tc main_v91)) shapeCasts_S256000x32_S128x64000 := by
  show StableHlo.after hostOps1 (W6 m ρ c) (Proc.devRef .tc main_v92) = _
  generalize W6 m ρ c = G
  after_results
  rfl

end AnyInstance

/-! ## At the ideal instance, index by index -/

variable (m : (ℓ : Loc nD τ sig) → Buf (Elt Ideal) ℓ) (ρ : Dev nD → PrngReg)

/-- Column 0 of the stacked array is the node signal. -/
theorem stack_at0 (c : Dev nD) (n : Fin 256000) :
    V5 (F := Ideal) m ρ c main_v89 (ix2 n (0 : Fin 5)) = m ((c : Thread nD τ).loc main_arg0) (ix2 n (0 : Fin 1)) := by
  show W5 (F := Ideal) m ρ c (Proc.devRef .tc main_v89) (ix2 n (0 : Fin 5)) = _
  rw [stack_any, Cert.Proof.Stack5.col0, arg0_any]

/-- Column 1 is the first propagated term. -/
theorem stack_at1 (c : Dev nD) (n : Fin 256000) :
    V5 (F := Ideal) m ρ c main_v89 (ix2 n (1 : Fin 5)) =
      Cert.Proof.RefSide.T1 (m ((c : Thread nD τ).loc main_arg0)) (m ((c : Thread nD τ).loc main_arg1)) (ix2 n (0 : Fin 1)) := by
  show W5 (F := Ideal) m ρ c (Proc.devRef .tc main_v89) (ix2 n (1 : Fin 5)) = _
  rw [stack_any, Cert.Proof.Stack5.col1, cheb1_any, Cert.Proof.RefSide.T1_def]

/-- Column 2 is the second propagated term. -/
theorem stack_at2 (c : Dev nD) (n : Fin 256000) :
    V5 (F := Ideal) m ρ c main_v89 (ix2 n (2 : Fin 5)) =
      Cert.Proof.RefSide.T2 (m ((c : Thread nD τ).loc main_arg0)) (m ((c : Thread nD τ).loc main_arg1)) (ix2 n (0 : Fin 1)) := by
  show W5 (F := Ideal) m ρ c (Proc.devRef .tc main_v89) (ix2 n (2 : Fin 5)) = _
  rw [stack_any, Cert.Proof.Stack5.col2, cheb2_any, Cert.Proof.RefSide.T2_def]

/-- Column 3 is the third propagated term. -/
theorem stack_at3 (c : Dev nD) (n : Fin 256000) :
    V5 (F := Ideal) m ρ c main_v89 (ix2 n (3 : Fin 5)) =
      Cert.Proof.RefSide.T3 (m ((c : Thread nD τ).loc main_arg0)) (m ((c : Thread nD τ).loc main_arg1)) (ix2 n (0 : Fin 1)) := by
  show W5 (F := Ideal) m ρ c (Proc.devRef .tc main_v89) (ix2 n (3 : Fin 5)) = _
  rw [stack_any, Cert.Proof.Stack5.col3, cheb3_any, Cert.Proof.RefSide.T3_def]

/-- Column 4 is the fourth propagated term. -/
theorem stack_at4 (c : Dev nD) (n : Fin 256000) :
    V5 (F := Ideal) m ρ c main_v89 (ix2 n (4 : Fin 5)) =
      Cert.Proof.RefSide.T4 (m ((c : Thread nD τ).loc main_arg0)) (m ((c : Thread nD τ).loc main_arg1)) (ix2 n (0 : Fin 1)) := by
  show W5 (F := Ideal) m ρ c (Proc.devRef .tc main_v89) (ix2 n (4 : Fin 5)) = _
  rw [stack_any, Cert.Proof.Stack5.col4, cheb4_any, Cert.Proof.RefSide.T4_def]

/-- Row `k`, channel `ch` of the two-axis weight array is the weight array at `(k, 0, ch)`. -/
theorem w2d_at (c : Dev nD) (k : Fin 5) (ch : Fin 32) :
    V5 (F := Ideal) m ρ c main_v90 (ix2 k ch) = m ((c : Thread nD τ).loc main_arg3) (ix3 k (0 : Fin 1) ch) := by
  show W5 (F := Ideal) m ρ c (Proc.devRef .tc main_v90) (ix2 k ch) = _
  rw [w2d_any]
  refine shapeCast_apply _ shapeCasts_S5x1x32_S5x32 (ix2 k ch) (ix3 k (0 : Fin 1) ch) ?_
  rewrite [Shape.rowMajor_val_three, Shape.rowMajor_val_two]
  show (k.val * 1 + 0) * 32 + ch.val = k.val * 32 + ch.val
  omega

/-- Feature `j` of graph `p` in the regrouped activations is channel `j % 32` of node `2000 p + j / 32` in the first
    region's result. -/
theorem h2d_at (c : Dev nD) (p : Fin 128) (j : Fin 64000) :
    V7 (F := Ideal) m ρ c main_v92 (ix2 p j) =
      V6 (F := Ideal) m ρ c main_v91 (ix2 (Cert.Proof.Spec.node p j) (Cert.Proof.Spec.chan j)) := by
  show W7 (F := Ideal) m ρ c (Proc.devRef .tc main_v92) (ix2 p j) =
    W6 (F := Ideal) m ρ c (Proc.devRef .tc main_v91) (ix2 (Cert.Proof.Spec.node p j) (Cert.Proof.Spec.chan j))
  rw [h2d_any]
  refine shapeCast_apply _ shapeCasts_S256000x32_S128x64000 (ix2 p j) (ix2 (Cert.Proof.Spec.node p j) (Cert.Proof.Spec.chan j)) ?_
  rewrite [Shape.rowMajor_val_two, Shape.rowMajor_val_two]
  show (p.val * 2000 + j.val / 32) * 32 + j.val % 32 = p.val * 64000 + j.val
  omega

end Cert.KernelIdeal.HostSide

end
-- ==== Proof.LibBlockedSum.lean ====
/-
  Blocked sums. A reduction over `Fin K` carried out block by block — `B` consecutive terms at a time, each block added to
  what the blocks before it made — is, after `r` blocks, the sum of the first `B · r` terms. To state "the first `n`
  terms" without a proof that `n ≤ K` in the index, a family `f : Fin K → α` is extended by zero past `K` (`ext f`) and
  summed over `Finset.range n`. Then: the whole range is the sum over `Fin K` (`sum_ext`); block `r` read through its own
  coordinates `k : Fin B` at positions `B · r + k` is a range sum of the extension (`sum_block`); and a prefix of `r + 1`
  blocks is the prefix of `r` blocks plus block `r` (`prefix_succ`). In any additive commutative monoid, any `K`, `B`.
-/
import Mathlib.Algebra.BigOperators.Fin
import Mathlib.Algebra.BigOperators.Group.Finset.Basic

noncomputable section

open scoped BigOperators
open Finset

namespace Cert.LibBlockedSum

variable {α : Type*} [AddCommMonoid α]

/-- A family over `Fin K`, extended by zero to every natural number. -/
def ext {K : ℕ} (f : Fin K → α) (i : ℕ) : α := if h : i < K then f ⟨i, h⟩ else 0

theorem ext_of_lt {K : ℕ} (f : Fin K → α) {i : ℕ} (h : i < K) : ext f i = f ⟨i, h⟩ := dif_pos h

/-- The whole range: the sum over `Fin K`. -/
theorem sum_ext {K : ℕ} (f : Fin K → α) : ∑ i ∈ range K, ext f i = ∑ i : Fin K, f i := by
  rw [Finset.sum_range]; exact Finset.sum_congr rfl fun i _ => ext_of_lt f i.isLt

/-- Block `r`, read through its own coordinates. -/
theorem sum_block {K B : ℕ} (f : Fin K → α) (r : ℕ) (hb : ∀ k : Fin B, B * r + k.val < K) :
    ∑ k : Fin B, f ⟨B * r + k.val, hb k⟩ = ∑ k ∈ range B, ext f (B * r + k) := by
  rw [Finset.sum_range]; exact Finset.sum_congr rfl fun k _ => (ext_of_lt f (hb k)).symm

/-- A prefix of `r + 1` blocks is the prefix of `r` blocks plus block `r`. -/
theorem prefix_succ (g : ℕ → α) (B r : ℕ) :
    ∑ i ∈ range (B * (r + 1)), g i = ∑ i ∈ range (B * r), g i + ∑ k ∈ range B, g (B * r + k) := by
  rw [Nat.mul_succ, Finset.sum_range_add]

end Cert.LibBlockedSum

end
-- ==== Proof.LibTenBlocks.lean ====
/-
  A sum accumulated block by block is the whole sum.

  A family `f : Fin K → α` in an additive commutative monoid is summed `B` consecutive terms at a time: block `t` is
  `∑ k : Fin B, f (B · t + k)`, and an accumulator starts as `0 +` block 0 and then adds block `t + 1` to what the blocks
  up to `t` made. When `n + 1` blocks of `B` terms tile the family (`B · (n + 1) = K`), the accumulator after block `n` is
  `∑ j : Fin K, f j`. Stated over any two sequences `a`, `b : ℕ → α` that satisfy the block and accumulation equations
  below the number of blocks, so that it applies to a recursion however it is spelt; only `0 + x = x`, associativity and
  the splitting of a range sum are used.

  * `acc_eq_prefix`: after block `t` the accumulator is the sum of the first `B · (t + 1)` terms;
  * `acc_eq_sum`: after the last block it is the whole sum;
  * `ten_blocks`: the case of ten blocks of 6400 terms tiling 64000, on the extended reals;
  * `blk`, `acc`: the same recursion written out once over the family extended by zero, for a proof that would rather
    name it than state the equations: `blk_eq` reads a block through its own coordinates, `acc_last` is the whole sum.
-/
import Mathlib.Data.EReal.Basic
import proofs.«152607_j82463372083215_1_alg».proof.Proof.LibBlockedSum

noncomputable section

open scoped BigOperators
open Finset

namespace Cert.LibTenBlocks

open Cert.LibBlockedSum

variable {α : Type*} [AddCommMonoid α]

/-- After block `t` the accumulator is the sum of the first `B · (t + 1)` terms. -/
theorem acc_eq_prefix {K B n : ℕ} (f : Fin K → α) (hlt : ∀ t, t < n + 1 → ∀ k : Fin B, B * t + k.val < K)
    (b a : ℕ → α) (hb : ∀ t (ht : t < n + 1), b t = ∑ k : Fin B, f ⟨B * t + k.val, hlt t ht k⟩)
    (h0 : a 0 = 0 + b 0) (hs : ∀ t, t + 1 < n + 1 → a (t + 1) = a t + b (t + 1)) :
    ∀ t, t < n + 1 → a t = ∑ i ∈ range (B * (t + 1)), ext f i := by
  intro t
  induction t with
  | zero =>
    intro ht
    rw [h0, zero_add, hb 0 ht, sum_block f 0 (hlt 0 ht), prefix_succ (ext f) B 0, Nat.mul_zero, Finset.sum_range_zero,
      zero_add]
  | succ t ih =>
    intro ht
    rw [hs t ht, ih (Nat.lt_of_succ_lt ht), hb (t + 1) ht, sum_block f (t + 1) (hlt (t + 1) ht),
      prefix_succ (ext f) B (t + 1)]

/-- After the last of `n + 1` blocks of `B` terms tiling the family, the accumulator is the whole sum. -/
theorem acc_eq_sum {K B n : ℕ} (hK : B * (n + 1) = K) (f : Fin K → α)
    (hlt : ∀ t, t < n + 1 → ∀ k : Fin B, B * t + k.val < K)
    (b a : ℕ → α) (hb : ∀ t (ht : t < n + 1), b t = ∑ k : Fin B, f ⟨B * t + k.val, hlt t ht k⟩)
    (h0 : a 0 = 0 + b 0) (hs : ∀ t, t + 1 < n + 1 → a (t + 1) = a t + b (t + 1)) :
    a n = ∑ j : Fin K, f j := by
  rw [acc_eq_prefix f hlt b a hb h0 hs n (Nat.lt_succ_self n), hK, sum_ext]

/-- Ten blocks of 6400 terms: the accumulator after block 9 is the sum of all 64000 terms. -/
theorem ten_blocks (f : Fin 64000 → EReal) (b a : ℕ → EReal)
    (hb : ∀ t (ht : t < 10), b t = ∑ k : Fin 6400, f ⟨6400 * t + k.val, by have := k.isLt; omega⟩)
    (h0 : a 0 = 0 + b 0) (hs : ∀ t, t + 1 < 10 → a (t + 1) = a t + b (t + 1)) :
    a 9 = ∑ j : Fin 64000, f j :=
  acc_eq_sum (B := 6400) (n := 9) rfl f (fun t ht k => by have := k.isLt; omega) b a hb h0 hs

/-- Block `t` of the family extended by zero: `B` consecutive terms from position `B · t`. -/
def blk (B : ℕ) {K : ℕ} (f : Fin K → α) (t : ℕ) : α := ∑ k : Fin B, ext f (B * t + k.val)

/-- The accumulator after block `t`: `0 +` block 0, then each next block added on the right. -/
def acc (B : ℕ) {K : ℕ} (f : Fin K → α) : ℕ → α
  | 0 => 0 + blk B f 0
  | t + 1 => acc B f t + blk B f (t + 1)

theorem acc_zero (B : ℕ) {K : ℕ} (f : Fin K → α) : acc B f 0 = 0 + blk B f 0 := rfl

theorem acc_succ (B : ℕ) {K : ℕ} (f : Fin K → α) (t : ℕ) : acc B f (t + 1) = acc B f t + blk B f (t + 1) := rfl

/-- A block that lies inside the family, read through its own coordinates. -/
theorem blk_eq {K B : ℕ} (f : Fin K → α) (t : ℕ) (hb : ∀ k : Fin B, B * t + k.val < K) :
    blk B f t = ∑ k : Fin B, f ⟨B * t + k.val, hb k⟩ :=
  Finset.sum_congr rfl fun k _ => ext_of_lt f (hb k)

/-- After the last of `n + 1` blocks of `B` terms tiling the family, `acc` is the whole sum. -/
theorem acc_last {K B n : ℕ} (hK : B * (n + 1) = K) (f : Fin K → α)
    (hlt : ∀ t, t < n + 1 → ∀ k : Fin B, B * t + k.val < K) : acc B f n = ∑ j : Fin K, f j :=
  acc_eq_sum hK f hlt (blk B f) (acc B f) (fun t ht => blk_eq f t (hlt t ht)) rfl (fun _ _ => rfl)

/-- Ten blocks of 6400 terms: `acc` after block 9 is the sum of all 64000 terms. -/
theorem acc_nine (f : Fin 64000 → EReal) : acc 6400 f 9 = ∑ j : Fin 64000, f j :=
  acc_last (B := 6400) (n := 9) rfl f (fun t ht k => by have := k.isLt; omega)

end Cert.LibTenBlocks

end
-- ==== Proof.KI.Bridge.lean ====
/-
  The kernel program's result is the specification's function of the launch arrays.

  The second region's output entry (p, q) is the ten blocks' sums added from the left onto zero, plus the bias; the ten
  blocks of 6400 terms are the 64000 terms of the dense layer's sum. A term is a feature of graph `p` against a weight;
  the feature is an entry of the first region's activation array regrouped one row per graph; the activation is the
  clamped five-term sum over the stacked Chebyshev terms; and the stacked terms, the weight matrix and the bias are the
  propagated terms and the launch arrays.
-/
import proofs.«152607_j82463372083215_1_alg».proof.Proof.KI.Run
import proofs.«152607_j82463372083215_1_alg».proof.Proof.KI.Args7
import proofs.«152607_j82463372083215_1_alg».proof.Proof.KI.Value0
import proofs.«152607_j82463372083215_1_alg».proof.Proof.KI.Value1
import proofs.«152607_j82463372083215_1_alg».proof.Proof.KI.HostVals
import proofs.«152607_j82463372083215_1_alg».proof.Proof.LibTenBlocks
import proofs.«152607_j82463372083215_1_alg».proof.Proof.RefSpec

set_option maxRecDepth 16384

noncomputable section

namespace Cert.KernelIdeal.Bridge

open Cert.KernelIdeal Cert.KernelIdeal.Gen Cert.KernelIdeal.Fr Cert.KernelIdeal.HostSide
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The specification's result on core `c`'s launch arrays. -/
def outSpec (c : Dev nD) : FVec Ideal Cert.Proof.Spec.SOut .f32 :=
  Cert.Proof.Spec.out (m ((c : Thread nD τ).loc main_arg0)) (Cert.Proof.RefSide.T1 (m ((c : Thread nD τ).loc main_arg0)) (m ((c : Thread nD τ).loc main_arg1))) (Cert.Proof.RefSide.T2 (m ((c : Thread nD τ).loc main_arg0)) (m ((c : Thread nD τ).loc main_arg1))) (Cert.Proof.RefSide.T3 (m ((c : Thread nD τ).loc main_arg0)) (m ((c : Thread nD τ).loc main_arg1))) (Cert.Proof.RefSide.T4 (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))

/-- A feature of graph `p`, as the second region finds it, is the specification's hidden activation. -/
theorem feat_at (c : Dev nD) (p : Fin 128) (j : Fin 64000) :
    V7 (F := Ideal) m ρ c main_v92 (ix2 p j)
      = Cert.Proof.Spec.hidden (m ((c : Thread nD τ).loc main_arg0)) (Cert.Proof.RefSide.T1 (m ((c : Thread nD τ).loc main_arg0)) (m ((c : Thread nD τ).loc main_arg1))) (Cert.Proof.RefSide.T2 (m ((c : Thread nD τ).loc main_arg0)) (m ((c : Thread nD τ).loc main_arg1))) (Cert.Proof.RefSide.T3 (m ((c : Thread nD τ).loc main_arg0)) (m ((c : Thread nD τ).loc main_arg1))) (Cert.Proof.RefSide.T4 (m ((c : Thread nD τ).loc main_arg0)) (m ((c : Thread nD τ).loc main_arg1))) (m ((c : Thread nD τ).loc main_arg3)) (m ((c : Thread nD τ).loc main_arg4)) (Cert.Proof.Spec.node p j) (Cert.Proof.Spec.chan j) := by
  rw [h2d_at m ρ c p j]
  have h6 : V6 (F := Ideal) m ρ c main_v91 = G0 (V5 m ρ c main_v89) (V5 m ρ c main_v90) (V5 m ρ c main_arg4) :=
    (W6_arr m ρ c 3).trans (final0 (V5 m ρ) c)
  rw [h6]
  show act (V5 m ρ c main_v89) (V5 m ρ c main_v90) (V5 m ρ c main_arg4) (Cert.Proof.Spec.node p j) (Cert.Proof.Spec.chan j) = _
  unfold act Cert.Proof.Spec.hidden
  rw [stack_at0 m ρ c, stack_at1 m ρ c, stack_at2 m ρ c, stack_at3 m ρ c, stack_at4 m ρ c,
    w2d_at m ρ c 0, w2d_at m ρ c 1, w2d_at m ρ c 2, w2d_at m ρ c 3, w2d_at m ρ c 4,
    show V5 (F := Ideal) m ρ c main_arg4 = m ((c : Thread nD τ).loc main_arg4) from W5_main_arg4 m ρ c]

/-- A term of the dense layer's sum, in the launch arrays. -/
theorem term_at (c : Dev nD) (p : Fin 128) (q : Fin 2) (j : Fin 64000) :
    term (V7 m ρ) c p q j
      = Cert.Proof.Spec.hidden (m ((c : Thread nD τ).loc main_arg0)) (Cert.Proof.RefSide.T1 (m ((c : Thread nD τ).loc main_arg0)) (m ((c : Thread nD τ).loc main_arg1))) (Cert.Proof.RefSide.T2 (m ((c : Thread nD τ).loc main_arg0)) (m ((c : Thread nD τ).loc main_arg1))) (Cert.Proof.RefSide.T3 (m ((c : Thread nD τ).loc main_arg0)) (m ((c : Thread nD τ).loc main_arg1))) (Cert.Proof.RefSide.T4 (m ((c : Thread nD τ).loc main_arg0)) (m ((c : Thread nD τ).loc main_arg1))) (m ((c : Thread nD τ).loc main_arg3)) (m ((c : Thread nD τ).loc main_arg4)) (Cert.Proof.Spec.node p j) (Cert.Proof.Spec.chan j)
        * (m ((c : Thread nD τ).loc main_arg5) : FVec Ideal Cert.Proof.Spec.SLinW .f32) (ix2 j q) := by
  unfold term feat linw
  rw [feat_at m ρ c p j, show V7 (F := Ideal) m ρ c main_arg5 = m ((c : Thread nD τ).loc main_arg5) from W7_main_arg5 m ρ c]

/-- The ten blocks' sums, added from the left onto zero, are the whole sum. -/
theorem accN_nine (c : Dev nD) (p : Fin 128) (q : Fin 2) :
    accN (V7 m ρ) c p q 9 (by omega) = ∑ j : Fin 64000, term (V7 m ρ) c p q j := by
  have h := Cert.LibTenBlocks.ten_blocks (term (V7 m ρ) c p q)
    (fun t => if h : t < 10 then blkSum (V7 m ρ) c p q t h else 0)
    (fun t => if h : t < 10 then accN (V7 m ρ) c p q t h else 0)
    (fun t ht => by rw [dif_pos ht]; rfl)
    (by rw [dif_pos (by omega : (0 : ℕ) < 10), dif_pos (by omega : (0 : ℕ) < 10)]; rfl)
    (fun t ht => by
      rw [dif_pos ht, dif_pos (by omega : t < 10), dif_pos ht]
      rfl)
  rw [dif_pos (by omega : (9 : ℕ) < 10)] at h
  exact h

/-- The result array at the last boundary is the specification's. -/
theorem out_eq (c : Dev nD) : W8 (F := Ideal) m ρ c (Proc.devRef .tc main_v93) = outSpec m c := by
  have h8 : W8 (F := Ideal) m ρ c (Proc.devRef .tc main_v93) = (outsAt1 (V7 m ρ) c 9 h9).1 :=
    (W8_arr m ρ c 3).trans (final1 (V7 m ρ) c)
  rw [h8]
  funext i
  obtain ⟨p, q, rfl⟩ : ∃ (p : Fin 128) (q : Fin 2), i = ix2 p q := ⟨i 0, i 1, eq_ix2 i⟩
  rw [out_at (V7 m ρ) c h9 p q, accN_nine m ρ c p q]
  unfold outSpec
  rw [Cert.Proof.Spec.out_apply]
  unfold Cert.Proof.Spec.outAt
  rw [show V7 (F := Ideal) m ρ c main_arg6 = m ((c : Thread nD τ).loc main_arg6) from W7_main_arg6 m ρ c]
  refine congrArg (fun s => s + (m ((c : Thread nD τ).loc main_arg6) : FVec Ideal Cert.Proof.Spec.SLinB .f32) (ix1 q)) ?_
  exact Finset.sum_congr rfl fun j _ => term_at m ρ c p q j

/-- The idealized kernel's run: it terminates, nothing faulting, with the result at the specification's function of the
    launch arrays and every argument array as launched. -/
theorem kernel_run : θ_run (defs (F := Ideal)) (onTc (τ := τ) (main (F := Ideal))) ⟨m, fun _ => 0, ρ⟩ (fun r => ∀ c : Dev nD,
      r.2.mem ((c.tc : Thread nD τ).loc main_v93) = outSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c =>
    ⟨(h c _ (mem_uc main_v93 (by decide))).trans (out_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩)
    (run_all (F := Ideal) m ρ)

end Cert.KernelIdeal.Bridge

end
-- ==== Proof.Claims.lean ====
/-
  The five claims. The three frames are the programs' runs read at the argument arrays. Nothing was rewritten by the
  idealization, so `preserves` is trivial. For `algebraic`: the idealized kernel ends with the specification's function
  of its launch arrays, the reference with the same function of its own, and the two memories agree on the arguments.
-/
import proofs.«152607_j82463372083215_1_alg».proof.Defs
import proofs.«152607_j82463372083215_1_alg».proof.Proof.Frames
import proofs.«152607_j82463372083215_1_alg».proof.Proof.KI.Bridge
import proofs.«152607_j82463372083215_1_alg».proof.Proof.RefSpec

noncomputable section

namespace Cert.Proof.Claims

open Idealize.ShloMosaic Idealize.ShloMosaic.TcCoe Idealize.SL.Sem

theorem frame_k : Cert.frame_Kernel := Cert.Proof.Frames.frame_k
theorem frame_ki : Cert.frame_KernelIdeal := Cert.Proof.Frames.frame_ki
theorem frame_ri : Cert.frame_ReferenceIdeal := Cert.Proof.RefSide.frame_ri

theorem preserves : Cert.preserves_Kernel_KernelIdeal := trivial

theorem algebraic : Cert.algebraic_KernelIdeal_ReferenceIdeal := by
  intro m ρ m' ρ' _ hagree
  refine ⟨fun c => Cert.KernelIdeal.Bridge.outSpec m c, Cert.KernelIdeal.Bridge.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.Proof.RefSide.ref_out m' c).trans ?_
  obtain ⟨h0, h1, -, h3, h4, h5, h6⟩ := hagree c
  rw [h0, h1, h3, h4, h5, h6]
  rfl

end Cert.Proof.Claims

end
-- ==== Proof.lean ====
/-
  The proof of `Cert.Claim`.

  A graph network on 128 graphs of 2000 nodes: five Chebyshev terms of the node signal (made by the same gather and
  scatter operations on the host in both programs), a per-node projection to 32 channels with bias and a clamp at zero,
  and a dense layer over each graph's 64000 features. The reference computes the projection as five rank-one products
  added from the left and the dense layer as one product; the kernel stacks the five terms, computes the projection in
  one region block by block over the nodes, and the dense layer in a second region that accumulates ten blocks of 6400
  features into a scratch buffer and adds the bias at the last block. Over the extended reals the two agree: the
  projection is term for term the same expression, and the ten blocks' sums added from the left are the whole sum (the
  sums live in a commutative monoid; no finiteness is used).

  The modules: Spec (the common function), RefRun / RefRead / RefSpec (the reference's run and its result as Spec),
  K/* and KI/* (each kernel program's run: the two regions' bodies, the buffer contents at each boundary, the run over
  the segments), KI/Value0, KI/Value1, KI/HostVals, KI/Bridge (the idealized kernel's result as Spec), Frames and Claims.
-/
import proofs.«152607_j82463372083215_1_alg».proof.Defs
import proofs.«152607_j82463372083215_1_alg».proof.Proof.Claims
import proofs.«152607_j82463372083215_1_alg».proof.Proof.Gen.Kernel
import proofs.«152607_j82463372083215_1_alg».proof.Proof.Gen.KernelIdeal
import proofs.«152607_j82463372083215_1_alg».proof.Proof.Gen.ReferenceIdeal
import proofs.«152607_j82463372083215_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
